-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S27x128x128 : S_.BroadcastsInDim S27x128x128 (![] : Fin 0 → Fin S27x128x128.rank)
  reducesTo_S27x128x128_S_d0_1_2 : S27x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S27x128x128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S27x128x128 .f32 := Host.absf main_arg4
  let main_cst_6 : FVec F S_ .f32 := constant S_ .f32 0x7F800000#32
  let main_v20 : FVec F S27x128x128 .f32 := broadcastInDim S27x128x128 ![] bcast_S_S27x128x128 main_cst_6
  let main_v21 : IVec S27x128x128 1 := cmpf .olt main_v19 main_v20
  let main_c_7 : IVec S_ 1 := constantI S_ 1 1#1
  let main_v22 : IVec S_ 1 := (fun x v => Host.reduce IntOp.andi x v reducesTo_S27x128x128_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S27x128x128 .f32) (main_arg2 : FVec F S128 .f32) (main_arg3 : FVec F S128 .f32) (main_arg4 : FVec F S27x128x128 .f32) (main_arg5 : FVec F S128 .f32) (main_arg6 : FVec F S128 .f32) (main_arg7 : IVec S27x50000 32) (main_arg8 : IVec S27x50000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S27x128x128 .f32 := Host.absf main_arg1
  let main_cst_0 : FVec F S_ .f32 := constant S_ .f32 0x7F800000#32
  let main_v5 : FVec F S27x128x128 .f32 := broadcastInDim S27x128x128 ![] bcast_S_S27x128x128 main_cst_0
  let main_v6 : IVec S27x128x128 1 := cmpf .olt main_v4 main_v5
  let main_c_1 : IVec S_ 1 := constantI S_ 1 1#1
  let main_v7 : IVec S_ 1 := (fun x v => Host.reduce IntOp.andi x v reducesTo_S27x128x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩
abbrev S27x50000x1 : Shape := ⟨3, ![27, 50000, 1]⟩
abbrev S27x50000x128 : Shape := ⟨3, ![27, 50000, 128]⟩
abbrev S1x10000x128 : Shape := ⟨3, ![1, 10000, 128]⟩
abbrev S1x128x128 : Shape := ⟨3, ![1, 128, 128]⟩
abbrev S10000x128 : Shape := ⟨2, ![10000, 128]⟩
abbrev S128x128 : Shape := ⟨2, ![128, 128]⟩
abbrev S1x128 : Shape := ⟨2, ![1, 128]⟩

abbrev nBuf : Space → Nat
  | .hbm => 87
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S27x128x128, .f32⟩
  | .hbm, ⟨2, _⟩ => ⟨S128, .f32⟩
  | .hbm, ⟨3, _⟩ => ⟨S128, .f32⟩
  | .hbm, ⟨4, _⟩ => ⟨S27x128x128, .f32⟩
  | .hbm, ⟨5, _⟩ => ⟨S128, .f32⟩
  | .hbm, ⟨6, _⟩ => ⟨S128, .f32⟩
  | .hbm, ⟨7, _⟩ => ⟨S27x50000, .i32⟩
  | .hbm, ⟨8, _⟩ => ⟨S27x50000, .i32⟩
  | .hbm, ⟨9, _⟩ => ⟨S_, .i32⟩
  | .hbm, ⟨10, _⟩ => ⟨S27x50000, .i32⟩
  | .hbm, ⟨11, _⟩ => ⟨S27x50000, .i1⟩
  | .hbm, ⟨12, _⟩ => ⟨S_, .i32⟩
  | .hbm, ⟨13, _⟩ => ⟨S27x50000, .i32⟩
  | .hbm, ⟨14, _⟩ => ⟨S27x50000, .i32⟩
  | .hbm, ⟨15, _⟩ => ⟨S27x50000, .i32⟩
  | .hbm, ⟨16, _⟩ => ⟨S27x50000x1, .i32⟩
  | .hbm, ⟨17, _⟩ => ⟨S27x50000x128, .f32⟩
  | .hbm, ⟨18, _⟩ => ⟨S27x50000x128, .bf16⟩
  | .hbm, ⟨19, _⟩ => ⟨S27x50000x128, .bf16⟩
  | .hbm, ⟨20, _⟩ => ⟨S_, .f32⟩
  | .hbm, ⟨21, _⟩ => ⟨S100000x128, .f32⟩
  | .hbm, ⟨22, _⟩ => ⟨S27x50000x128, .f32⟩
  | .hbm, ⟨23, _⟩ => ⟨S_, .i32⟩
  | .hbm, ⟨24, _⟩ => ⟨S27x50000, .i32⟩
  | .hbm, ⟨25, _⟩ => ⟨S27x50000, .i1⟩
  | .hbm, ⟨26, _⟩ => ⟨S_, .i32⟩
  | .hbm, ⟨27, _⟩ => ⟨S27x50000, .i32⟩
  | .hbm, ⟨28, _⟩ => ⟨S27x50000, .i32⟩
  | .hbm, ⟨29, _⟩ => ⟨S27x50000, .i32⟩
  | .hbm, ⟨30, _⟩ => ⟨S27x50000x1, .i32⟩
  | .hbm, ⟨31, _⟩ => ⟨S100000x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S100000x128, .f32⟩
  | .hbm, ⟨48, _⟩ => ⟨S_, .i32⟩
  | .hbm, ⟨49, _⟩ => ⟨S27x50000, .i32⟩
  | .hbm, ⟨50, _⟩ => ⟨S27x50000, .i1⟩
  | .hbm, ⟨51, _⟩ => ⟨S_, .i32⟩
  | .hbm, ⟨52, _⟩ => ⟨S27x50000, .i32⟩
  | .hbm, ⟨53, _⟩ => ⟨S27x50000, .i32⟩
  | .hbm, ⟨54, _⟩ => ⟨S27x50000, .i32⟩
  | .hbm, ⟨55, _⟩ => ⟨S27x50000x1, .i32⟩
  | .hbm, ⟨56, _⟩ => ⟨S27x50000x128, .f32⟩
  | .hbm, ⟨57, _⟩ => ⟨S27x50000x128, .bf16⟩
  | .hbm, ⟨58, _⟩ => ⟨S27x50000x128, .bf16⟩
  | .hbm, ⟨59, _⟩ => ⟨S_, .f32⟩
  | .hbm, ⟨60, _⟩ => ⟨S100000x128, .f32⟩
  | .hbm, ⟨61, _⟩ => ⟨S27x50000x128, .f32⟩
  | .hbm, ⟨62, _⟩ => ⟨S_, .i32⟩
  | .hbm, ⟨63, _⟩ => ⟨S27x50000, .i32⟩
  | .hbm, ⟨64, _⟩ => ⟨S27x50000, .i1⟩
  | .hbm, ⟨65, _⟩ => ⟨S_, .i32⟩
  | .hbm, ⟨66, _⟩ => ⟨S27x50000, .i32⟩
  | .hbm, ⟨67, _⟩ => ⟨S27x50000, .i32⟩
  | .hbm, ⟨68, _⟩ => ⟨S27x50000, .i32⟩
  | .hbm, ⟨69, _⟩ => ⟨S27x50000x1, .i32⟩
  | .hbm, ⟨70, _⟩ => ⟨S100000x128, .f32⟩
  | .hbm, ⟨71, _⟩ => ⟨S1x128, .f32⟩
  | .hbm, ⟨72, _⟩ => ⟨S1x128, .f32⟩
  | .hbm, ⟨73, _⟩ => ⟨S_, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S100000x128, .f32⟩
  | .local _ .vmem, ⟨0, _⟩ => ⟨S1x10000x128, .bf16⟩
  | .local _ .vmem, ⟨1, _⟩ => ⟨S1x10000x128, .bf16⟩
  | .local _ .vmem, ⟨2, _⟩ => ⟨S1x128x128, .f32⟩
  | .local _ .vmem, ⟨3, _⟩ => ⟨S1x128x128, .f32⟩
  | .local _ .vmem, ⟨4, _⟩ => ⟨S1x10000x128, .bf16⟩
  | .local _ .vmem, ⟨5, _⟩ => ⟨S1x10000x128, .bf16⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S1x10000x128, .bf16⟩
  | .local _ .vmem, ⟨19, _⟩ => ⟨S1x10000x128, .bf16⟩
  | .local _ .vmem, ⟨20, _⟩ => ⟨S1x128x128, .f32⟩
  | .local _ .vmem, ⟨21, _⟩ => ⟨S1x128x128, .f32⟩
  | .local _ .vmem, ⟨22, _⟩ => ⟨S1x10000x128, .bf16⟩
  | .local _ .vmem, ⟨23, _⟩ => ⟨S1x10000x128, .bf16⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc5_stg6_0 : Ref sig .tc := ⟨.vmem, 36, rfl⟩
abbrev cc5_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc5_sem6_0 : DmaSem sig := 36
abbrev cc5_sem6_1 : DmaSem sig := 37

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![27, 5], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x10000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x10000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bitsLt_bf16_f32 : FTy.bits .bf16 < FTy.bits .f32
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S10000x128_S1x10000x128 : S10000x128.ShapeCasts S1x10000x128
  packedbf16_S1x10000x128_S1x10000x128_0_0_0 : (Rect.unit (s := S1x10000x128) ![0, 0, 0] S1x10000x128.size inb_S1x10000x128_S1x10000x128_0_0_0).PackedRows (EltTy.packing .bf16)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S1x128_S1x128 : S1x128.ShapeCasts S1x128
  reduces_S10000x128_S128 : S10000x128.Reduces [0] S128
  shapeCasts_S128_S1x128 : S128.ShapeCasts S1x128
  bcast_S_S1x128 : S_.BroadcastsInDim S1x128 (![] : Fin 0 → Fin S1x128.rank)
  broadcasts_S1x128_S10000x128 : S1x128.Broadcasts S10000x128
  gather_S100000x128_S27x50000x1_S27x50000x128_2_0_n_n_0_2_1128_wf : GatherDims.WF S100000x128 S27x50000x1 S27x50000x128 [2] [0] [] [0] [] 2 ![1, 128]
  dot_S10000x128_S128x128_S10000x128_1_0_0_1_n_n_wf : DotDims.WF S10000x128 S128x128 S10000x128 [1] [0] [0] [1] [] []
  scatter_S100000x128_S27x50000x1_S27x50000x128_2_0_0_2_wf : ScatterDims.WF S100000x128 S27x50000x1 S27x50000x128 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S27x50000x128.size a
  hwx0_0 : ∀ i : grid0.Coords, EltTy.bits .bf16 = 32 ∨ (Rect.block (s := S27x50000x128) S1x10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .f32 = 32 ∨ (Rect.block (s := S27x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x128.size a ≤ S27x50000x128.size a
  hwx0_2 : ∀ i : grid0.Coords, EltTy.bits .bf16 = 32 ∨ (Rect.block (s := S27x50000x128) S1x10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x10000x128.size a ≤ S27x50000x128.size a
  hwx3_0 : ∀ i : grid3.Coords, EltTy.bits .bf16 = 32 ∨ (Rect.block (s := S27x50000x128) S1x10000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x128.size a ≤ S27x128x128.size a
  hwx3_1 : ∀ i : grid3.Coords, EltTy.bits .f32 = 32 ∨ (Rect.block (s := S27x128x128) S1x128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x10000x128.size a ≤ S27x50000x128.size a
  hwx3_2 : ∀ i : grid3.Coords, EltTy.bits .bf16 = 32 ∨ (Rect.block (s := S27x50000x128) S1x10000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)

variable [Facts₀]

def gather_S100000x128_S27x50000x1_S27x50000x128_2_0_n_n_0_2_1128 : GatherDims S100000x128 S27x50000x1 S27x50000x128 where
  offsetDims := [2]
  collapsedSliceDims := [0]
  operandBatchingDims := []
  startIndicesBatchingDims := []
  startIndexMap := [0]
  indexVectorDim := 2
  sliceSizes := ![1, 128]
  wf := gather_S100000x128_S27x50000x1_S27x50000x128_2_0_n_n_0_2_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S27x50000x1_S27x50000x128_2_0_0_2 : ScatterDims S100000x128 S27x50000x1 S27x50000x128 where
  updateWindowDims := [2]
  insertedWindowDims := [0]
  scatterDimsToOperandDims := [0]
  indexVectorDim := 2
  wf := scatter_S100000x128_S27x50000x1_S27x50000x128_2_0_0_2_wf

abbrev win0_0 : Pipeline.Window sig grid0 :=
  Pipeline.Window.ofSpec (Memref.whole main_v7) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v37) S1x10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1x128x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v47) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v48_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg0) S10000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v59) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩
abbrev S27x50000x1 : Shape := ⟨3, ![27, 50000, 1]⟩
abbrev S27x50000x128 : Shape := ⟨3, ![27, 50000, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S27x128x128, .f32⟩
  | .hbm, ⟨2, _⟩ => ⟨S128, .f32⟩
  | .hbm, ⟨3, _⟩ => ⟨S128, .f32⟩
  | .hbm, ⟨4, _⟩ => ⟨S27x128x128, .f32⟩
  | .hbm, ⟨5, _⟩ => ⟨S128, .f32⟩
  | .hbm, ⟨6, _⟩ => ⟨S128, .f32⟩
  | .hbm, ⟨7, _⟩ => ⟨S27x50000, .i32⟩
  | .hbm, ⟨8, _⟩ => ⟨S27x50000, .i32⟩
  | .hbm, ⟨9, _⟩ => ⟨S_, .i32⟩
  | .hbm, ⟨10, _⟩ => ⟨S27x50000, .i32⟩
  | .hbm, ⟨11, _⟩ => ⟨S27x50000, .i1⟩
  | .hbm, ⟨12, _⟩ => ⟨S_, .i32⟩
  | .hbm, ⟨13, _⟩ => ⟨S27x50000, .i32⟩
  | .hbm, ⟨14, _⟩ => ⟨S27x50000, .i32⟩
  | .hbm, ⟨15, _⟩ => ⟨S27x50000, .i32⟩
  | .hbm, ⟨16, _⟩ => ⟨S27x50000x1, .i32⟩
  | .hbm, ⟨17, _⟩ => ⟨S27x50000x128, .f32⟩
  | .hbm, ⟨18, _⟩ => ⟨S27x50000x128, .f32⟩
  | .hbm, ⟨19, _⟩ => ⟨S_, .f32⟩
  | .hbm, ⟨20, _⟩ => ⟨S100000x128, .f32⟩
  | .hbm, ⟨21, _⟩ => ⟨S_, .i32⟩
  | .hbm, ⟨22, _⟩ => ⟨S27x50000, .i32⟩
  | .hbm, ⟨23, _⟩ => ⟨S27x50000, .i1⟩
  | .hbm, ⟨24, _⟩ => ⟨S_, .i32⟩
  | .hbm, ⟨25, _⟩ => ⟨S27x50000, .i32⟩
  | .hbm, ⟨26, _⟩ => ⟨S27x50000, .i32⟩
  | .hbm, ⟨27, _⟩ => ⟨S27x50000, .i32⟩
  | .hbm, ⟨28, _⟩ => ⟨S27x50000x1, .i32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S27x50000, .i32⟩
  | .hbm, ⟨65, _⟩ => ⟨S27x50000, .i1⟩
  | .hbm, ⟨66, _⟩ => ⟨S_, .i32⟩
  | .hbm, ⟨67, _⟩ => ⟨S27x50000, .i32⟩
  | .hbm, ⟨68, _⟩ => ⟨S27x50000, .i32⟩
  | .hbm, ⟨69, _⟩ => ⟨S27x50000, .i32⟩
  | .hbm, ⟨70, _⟩ => ⟨S27x50000x1, .i32⟩
  | .hbm, ⟨71, _⟩ => ⟨S27x50000x128, .f32⟩
  | .hbm, ⟨72, _⟩ => ⟨S27x50000x128, .f32⟩
  | .hbm, ⟨73, _⟩ => ⟨S_, .f32⟩
  | .hbm, ⟨74, _⟩ => ⟨S100000x128, .f32⟩
  | .hbm, ⟨75, _⟩ => ⟨S_, .i32⟩
  | .hbm, ⟨76, _⟩ => ⟨S27x50000, .i32⟩
  | .hbm, ⟨77, _⟩ => ⟨S27x50000, .i1⟩
  | .hbm, ⟨78, _⟩ => ⟨S_, .i32⟩
  | .hbm, ⟨79, _⟩ => ⟨S27x50000, .i32⟩
  | .hbm, ⟨80, _⟩ => ⟨S27x50000, .i32⟩
  | .hbm, ⟨81, _⟩ => ⟨S27x50000, .i32⟩
  | .hbm, ⟨82, _⟩ => ⟨S27x50000x1, .i32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call1_cst : Ref sig .tc := ⟨.hbm, 115, rfl⟩
abbrev main_call1_v0 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S27x50000x1_S27x50000x128_2_0_n_n_0_2_1128_wf : GatherDims.WF S100000x128 S27x50000x1 S27x50000x128 [2] [0] [] [0] [] 2 ![1, 128]
  dot_S27x50000x128_S27x128x128_S27x50000x128_2_1_1_2_0_0_wf : DotDims.WF S27x50000x128 S27x128x128 S27x50000x128 [2] [1] [1] [2] [0] [0]
  scatter_S100000x128_S27x50000x1_S27x50000x128_2_0_0_2_wf : ScatterDims.WF S100000x128 S27x50000x1 S27x50000x128 [2] [0] [0] 2

variable [Facts₀]

def gather_S100000x128_S27x50000x1_S27x50000x128_2_0_n_n_0_2_1128 : GatherDims S100000x128 S27x50000x1 S27x50000x128 where
  offsetDims := [2]
  collapsedSliceDims := [0]
  operandBatchingDims := []
  startIndicesBatchingDims := []
  startIndexMap := [0]
  indexVectorDim := 2
  sliceSizes := ![1, 128]
  wf := gather_S100000x128_S27x50000x1_S27x50000x128_2_0_n_n_0_2_1128_wf
def dot_S27x50000x128_S27x128x128_S27x50000x128_2_1_1_2_0_0 : DotDims S27x50000x128 S27x128x128 S27x50000x128 where
  lhsContracting := [2]
  rhsContracting := [1]
  lhsNonContracting := [1]
  rhsNonContracting := [2]
  lhsBatch := [0]
  rhsBatch := [0]
  wf := dot_S27x50000x128_S27x128x128_S27x50000x128_2_1_1_2_0_0_wf
def scatter_S100000x128_S27x50000x1_S27x50000x128_2_0_0_2 : ScatterDims S100000x128 S27x50000x1 S27x50000x128 where
  updateWindowDims := [2]
  insertedWindowDims := [0]
  scatterDimsToOperandDims := [0]
  indexVectorDim := 2
  wf := scatter_S100000x128_S27x50000x1_S27x50000x128_2_0_0_2_wf

class Facts : Prop extends Facts₀ where

variable [Facts]
-- ==== Proof.KRun.lean ====
/-
  The idealized kernel's run with its RESULT named.

  The program is twelve segments: six stretches of host operations and six pipelined regions. The buffer contents at
  each segment boundary are a fold from the launch memory (`Gen.W0` … `Gen.W12`): a host stretch applies its operations,
  a region replaces its windows' arrays by what its write-backs leave. Every weakly fair execution terminates, nothing
  faulting, with every unscoped buffer at the last boundary's contents; so the result buffer ends at `Gen.W12` read at
  it, and each argument, which no segment writes, as launched.
-/
import proofs.«135215_j8418135900537_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the twelve segments from the launch, read at the result buffer and at the arguments: the result ends at
    the last boundary's contents, every argument as launched. -/
theorem run : θ_run defs (onTc (τ := τ) (main (F := F))) ⟨m, fun _ => 0, ρ⟩ (fun r => ∀ c : Dev nD,
      r.2.mem ((c.tc : Thread nD τ).loc main_v59) = W12 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v59 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Result

end
-- ==== Proof.Spec.lean ====
/-
  The residual block as ONE function of its argument arrays, on the extended reals.

  A sparse convolution gathers rows of an [N, C] array at the pair list's input indices (K offsets, M pairs each),
  multiplies the rows of offset k by the C × C matrix of that offset, and adds the products into the rows named by the
  pair list's output indices, starting from zero:
      conv x w (n, d) = 0 + ∑ over the pairs (k, m) whose output index is n of ∑ c, x (in (k, m), c) · w (k, c, d).
  A batch normalisation over the N rows subtracts each column's mean, multiplies by (variance + ε)^(-1/2), scales by γ
  and adds β. The block is  relu (bn (conv (relu (bn (conv x w₁))) w₂) + x).

  The variance of a column is taken here as a PARAMETER of the block, because the two programs compute it in two
  ways: from the two moments, max (∑ y² / N − (∑ y / N)², 0) (`varM`), and as the mean of the squared deviations from
  the mean, ∑ (y − μ)² / N (`varD`). Everything else the two programs do is literally one term.
-/
import proofs.«135215_j8418135900537_2_alg».proof.KernelIdeal
import proofs.«135215_j8418135900537_2_alg».proof.Proof.Gen.KernelIdeal
import Idealize.ShloMosaic.PureOps.Ideal
import Idealize.ShloMosaic.Lib.ValueIdx

noncomputable section

namespace Cert.ResBlock

open Idealize.ShloMosaic Cert.KernelIdeal Cert.KernelIdeal.Facts₀
open scoped BigOperators

/-! ## Indices -/

/-- The entry (k, m, c) of a [K, M, C] array, from a result index (k, m, d) and a contracted coordinate c. -/
abbrev lix (i : S27x50000x128.Idx) (k : Fin 128) : S27x50000x128.Idx := fun a => match a with
  | ⟨0, _⟩ => ⟨(i 0).val, (i 0).isLt⟩
  | ⟨1, _⟩ => ⟨(i 1).val, (i 1).isLt⟩
  | ⟨2, _⟩ => ⟨k.val, k.isLt⟩

/-- The entry (k, c, d) of the [K, C, C] weights, from a result index (k, m, d) and a contracted coordinate c. -/
abbrev rix (i : S27x50000x128.Idx) (k : Fin 128) : S27x128x128.Idx := fun a => match a with
  | ⟨0, _⟩ => ⟨(i 0).val, (i 0).isLt⟩
  | ⟨1, _⟩ => ⟨k.val, k.isLt⟩
  | ⟨2, _⟩ => ⟨(i 2).val, (i 2).isLt⟩

/-- The entry (n, d) of an [N, C] array. -/
abbrev rc (n : Fin 100000) (d : Fin 128) : S100000x128.Idx := fun a => match a with
  | ⟨0, _⟩ => ⟨n.val, n.isLt⟩
  | ⟨1, _⟩ => ⟨d.val, d.isLt⟩

/-- The column of an index of an [N, C] array. -/
abbrev col (i : S100000x128.Idx) : Fin 128 := ⟨(i 1).val, (i 1).isLt⟩

/-- The entry (0, d) of a [1, C] array, from an index (n, d) of an [N, C] array. -/
abbrev row0 (i : S100000x128.Idx) : S1x128.Idx := fun a => match a with
  | ⟨0, _⟩ => ⟨0, Nat.one_pos⟩
  | ⟨1, _⟩ => ⟨(i 1).val, (i 1).isLt⟩

/-- The column of an index of a [1, C] array. -/
abbrev col1 (j : S1x128.Idx) : Fin 128 := ⟨(j 1).val, (j 1).isLt⟩

/-- The entry d of a [C] vector. -/
abbrev v1 (d : Fin 128) : S128.Idx := fun a => match a with
  | ⟨0, _⟩ => ⟨d.val, d.isLt⟩

/-! ## The sparse convolution -/

/-- A pair list's indices as the gather and the scatter read them: a negative index counts from the end (N is added),
    and the [K, M] list becomes a [K, M, 1] array of one-component start indices. -/
def wrapIdx (idx : IVec S27x50000 32) : IVec S27x50000x1 32 :=
  broadcastInDim S27x50000x1 ![0, 1] bcast_S27x50000_S27x50000x1_0_1
    (select (cmpi .slt idx (broadcastInDim S27x50000 ![] bcast_S_S27x50000 (constantI S_ 32 0#32)))
      (addi idx (broadcastInDim S27x50000 ![] bcast_S_S27x50000 (constantI S_ 32 100000#32))) idx)

/-- The rows of `x` at the pair list's input indices: a [K, M, C] array. -/
def gath (x : FVec Ideal S100000x128 .f32) (ii : IVec S27x50000 32) : FVec Ideal S27x50000x128 .f32 :=
  Host.gather gather_S100000x128_S27x50000x1_S27x50000x128_2_0_n_n_0_2_1128 x (wrapIdx ii)

/-- Each gathered row times its offset's matrix: (k, m, d) ↦ ∑ c, g (k, m, c) · w (k, c, d). -/
def mm (g : FVec Ideal S27x50000x128 .f32) (w : FVec Ideal S27x128x128 .f32) : FVec Ideal S27x50000x128 .f32 :=
  fun i => ∑ k : Fin 128, g (lix i k) * w (rix i k)

/-- The products added into the rows the pair list's output indices name, from zero. -/
def scat (u : FVec Ideal S27x50000x128 .f32) (io : IVec S27x50000 32) : FVec Ideal S100000x128 .f32 :=
  Host.scatterAdd (F := Ideal) scatter_S100000x128_S27x50000x1_S27x50000x128_2_0_0_2
    (broadcastInDim S100000x128 ![] bcast_S_S100000x128 (constant (F := Ideal) S_ .f32 0x00000000#32)) (wrapIdx io) u

/-- The sparse convolution. -/
def conv (x : FVec Ideal S100000x128 .f32) (w : FVec Ideal S27x128x128 .f32) (ii io : IVec S27x50000 32) :
    FVec Ideal S100000x128 .f32 :=
  scat (mm (gath x ii) w) io

/-! ## The batch normalisation -/

/-- The number of rows, as the programs spell it. -/
def cnt : EReal := Ideal.ofBits .f32 0x47C35000#32
/-- The ε added to the variance, as the programs spell it. -/
def eps : EReal := Ideal.ofBits .f32 0x3727C5AC#32

/-- The sum of column `d` over the N rows. -/
def colSum (y : FVec Ideal S100000x128 .f32) (d : Fin 128) : EReal := ∑ n : Fin 100000, y (rc n d)

/-- The array of the squares. -/
def sq (y : FVec Ideal S100000x128 .f32) : FVec Ideal S100000x128 .f32 := fun i => y i * y i

/-- The mean of column `d`. -/
def mean (y : FVec Ideal S100000x128 .f32) (d : Fin 128) : EReal := Ideal.div (colSum y d) cnt

/-- The variance of column `d` from the two moments, clamped at zero. -/
def varM (y : FVec Ideal S100000x128 .f32) (d : Fin 128) : EReal :=
  max (Ideal.div (colSum (sq y) d) cnt - mean y d * mean y d) 0

/-- The variance of column `d` as the mean of the squared deviations from the mean. -/
def varD (y : FVec Ideal S100000x128 .f32) (d : Fin 128) : EReal :=
  Ideal.div (∑ n : Fin 100000, (y (rc n d) - mean y d) * (y (rc n d) - mean y d)) cnt

/-- One normalised, scaled and shifted entry, for a mean `μ` and a variance `v` of its column. -/
def affine (y μ v γ β : EReal) : EReal := ((y - μ) * Ideal.rsqrt (v + eps)) * γ + β

/-- The batch normalisation of `y` with the variance taken as `var`. -/
def bn (var : FVec Ideal S100000x128 .f32 → Fin 128 → EReal) (y : FVec Ideal S100000x128 .f32)
    (γ β : FVec Ideal S128 .f32) : FVec Ideal S100000x128 .f32 :=
  fun i => affine (y i) (mean y (col i)) (var y (col i)) (γ (v1 (col i))) (β (v1 (col i)))

/-! ## The block -/

/-- The first half: convolution, normalisation, rectification. -/
def half1 (var : FVec Ideal S100000x128 .f32 → Fin 128 → EReal) (x : FVec Ideal S100000x128 .f32)
    (w1 : FVec Ideal S27x128x128 .f32) (γ1 β1 : FVec Ideal S128 .f32) (ii io : IVec S27x50000 32) :
    FVec Ideal S100000x128 .f32 :=
  fun i => max (bn var (conv x w1 ii io) γ1 β1 i) 0

/-- The whole block: the second convolution and normalisation of the first half, the skip connection, the
    rectification. -/
def block (var : FVec Ideal S100000x128 .f32 → Fin 128 → EReal) (x : FVec Ideal S100000x128 .f32)
    (w1 : FVec Ideal S27x128x128 .f32) (γ1 β1 : FVec Ideal S128 .f32) (w2 : FVec Ideal S27x128x128 .f32)
    (γ2 β2 : FVec Ideal S128 .f32) (ii io : IVec S27x50000 32) : FVec Ideal S100000x128 .f32 :=
  fun i => max (bn var (conv (half1 var x w1 γ1 β1 ii io) w2 ii io) γ2 β2 i + x i) 0

end Cert.ResBlock

end
-- ==== Proof.RegGemm.lean ====
/-
  The two matrix-product regions of the block. Each runs over a grid of 27 × 5 points; the point (k, b) stages rows
  10000·b … 10000·b + 9999 of offset k's gathered rows (a [1, 10000, 128] block), offset k's 128 × 128 weight matrix
  (a [1, 128, 128] block), multiplies the first by the second into a zero accumulator and writes the product back as
  block (k, b) of the output. On the extended reals every change of float format is the identity and the product's
  entry (r, d) is ∑ c, row r's entry c times the matrix's entry (c, d). So what the point writes back is its block of
      (k, m, d) ↦ ∑ c, g (k, m, c) · w (k, c, d),
  and the 135 blocks tile the [27, 50000, 128] output: the array ends holding that function.
-/
import proofs.«135215_j8418135900537_2_alg».proof.Proof.Gen.KernelIdeal.Frame
import proofs.«135215_j8418135900537_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Cert.ResBlock
open Idealize.ShloMosaic Idealize.ShloMosaic.TcCoe Idealize.SL.Sem
open scoped BigOperators

variable (V : (c : Dev nD) → (b : Ref sig .tc) → Buf (Elt Ideal) ((c : Thread nD τ).loc b))

/-! ## The product of a 10000 × 128 block by a 128 × 128 matrix, at an entry -/

/-- The left operand's row coordinate is the result's. -/
theorem prod_lhs_row (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- The left operand's column coordinate is the contracted one. -/
theorem prod_lhs_col (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q

/-- The right operand's row coordinate is the contracted one. -/
theorem prod_rhs_row (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q

/-- The right operand's column coordinate is the result's. -/
theorem prod_rhs_col (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator, on the extended reals, at the entry (r, d): ∑ c, a (r, c) · b (c, d). -/
theorem prod_apply (a : FVec Ideal S10000x128 .bf16) (b : FVec Ideal S128x128 .bf16) (r : Fin 10000) (d : Fin 128) :
    matmul (F := Ideal) dot_S10000x128_S128x128_S10000x128_1_0_0_1_n_n none a b (constant (F := Ideal) S10000x128 .f32 0x00000000#32) (ValueIdx.ix2 r d)
      = ∑ k : Fin 128, a (ValueIdx.ix2 r k) * b (ValueIdx.ix2 k d) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ValueIdx.ix2 r d) ((ValueIdx.contrEquiv1 dot_S10000x128_S128x128_S10000x128_1_0_0_1_n_n 128 rfl rfl).symm k) = ValueIdx.ix2 r k := funext fun x => Fin.ext (by
    match x with
    | ⟨0, _⟩ => exact prod_lhs_row _ _
    | ⟨1, _⟩ => exact (prod_lhs_col _ _).trans hk)
  have er : dot_S10000x128_S128x128_S10000x128_1_0_0_1_n_n.rhsIdx (ValueIdx.ix2 r d) ((ValueIdx.contrEquiv1 dot_S10000x128_S128x128_S10000x128_1_0_0_1_n_n 128 rfl rfl).symm k) = ValueIdx.ix2 k d := funext fun x => Fin.ext (by
    match x with
    | ⟨0, _⟩ => exact (prod_rhs_row _ _).trans hk
    | ⟨1, _⟩ => exact prod_rhs_col _ _)
  rw [el, er]

/-! ## What a point's body stores, at an entry -/

/-- The stored block's entry (z, r, d) is ∑ c, x0 (0, r, c) · x1 (0, c, d): the unit axis is dropped from both staged
    blocks and restored on the product, and no change of format changes a value. -/
theorem gemm_pay_apply (x0 : Vec Ideal S1x10000x128 .bf16) (x1 : Vec Ideal S1x128x128 .f32)
    (z : Fin 1) (r : Fin 10000) (d : Fin 128) :
    k0_pay1 x0 x1 (ValueIdx.ix3 z r d)
      = ∑ k : Fin 128, x0 (ValueIdx.ix3 (0 : Fin 1) r k) * x1 (ValueIdx.ix3 (0 : Fin 1) k d) := by
  unfold k0_pay1
  refine (ValueIdx.shapeCast_ab_1ab_apply _ _ z r d).trans ?_
  rw [ValueIdx.truncf_apply]
  refine (prod_apply _ _ r d).trans ?_
  refine Finset.sum_congr rfl fun k _ => ?_
  rw [ValueIdx.truncf_apply, ValueIdx.shapeCast_1ab_ab_apply, ValueIdx.shapeCast_1ab_ab_apply]

/-- The entry (0, r, c) of a staged [1, 10000, 128] block, from a stored index (z, r, d) and a contracted coordinate c. -/
abbrev blkL (y : S1x10000x128.Idx) (k : Fin 128) : S1x10000x128.Idx := fun a => match a with
  | ⟨0, _⟩ => ⟨0, Nat.one_pos⟩
  | ⟨1, _⟩ => ⟨(y 1).val, (y 1).isLt⟩
  | ⟨2, _⟩ => ⟨k.val, k.isLt⟩

/-- The entry (0, c, d) of a staged [1, 128, 128] block, from a stored index (z, r, d) and a contracted coordinate c. -/
abbrev blkR (y : S1x10000x128.Idx) (k : Fin 128) : S1x128x128.Idx := fun a => match a with
  | ⟨0, _⟩ => ⟨0, Nat.one_pos⟩
  | ⟨1, _⟩ => ⟨k.val, k.isLt⟩
  | ⟨2, _⟩ => ⟨(y 2).val, (y 2).isLt⟩

/-- The same at any index of the stored block. -/
theorem gemm_pay_at (x0 : Vec Ideal S1x10000x128 .bf16) (x1 : Vec Ideal S1x128x128 .f32) (y : S1x10000x128.Idx) :
    k0_pay1 x0 x1 y = ∑ k : Fin 128, x0 (blkL y k) * x1 (blkR y k) := by
  obtain ⟨z, r, d, rfl⟩ : ∃ (z : Fin 1) (r : Fin 10000) (d : Fin 128), y = ValueIdx.ix3 z r d :=
    ⟨y 0, y 1, y 2, ValueIdx.eq_ix3 y⟩
  rw [gemm_pay_apply]
  refine Finset.sum_congr rfl fun k _ => ?_
  have eL : blkL (ValueIdx.ix3 z r d) k = ValueIdx.ix3 (0 : Fin 1) r k :=
    funext fun a => by match a with | ⟨0, _⟩ => rfl | ⟨1, _⟩ => rfl | ⟨2, _⟩ => rfl
  have eR : blkR (ValueIdx.ix3 z r d) k = ValueIdx.ix3 (0 : Fin 1) k d :=
    funext fun a => by match a with | ⟨0, _⟩ => rfl | ⟨1, _⟩ => rfl | ⟨2, _⟩ => rfl
  rw [eL, eR]

/-- Three zero offsets are the zero function. -/
theorem zero3 : (![0, 0, 0] : Fin 3 → Nat) = fun _ => 0 := funext fun a => by fin_cases a <;> rfl

/-- Two products of extended reals with equal factors are equal. -/
theorem mul_eq_mul_of_eq {a b a' b' : EReal} (ha : a = a') (hb : b = b') : a * b = a' * b' := by rw [ha, hb]

/-- The second product region's body stores the same function of its two staged blocks. -/
theorem gemm_pay3_at (x0 : Vec Ideal S1x10000x128 .bf16) (x1 : Vec Ideal S1x128x128 .f32) (y : S1x10000x128.Idx) :
    k3_pay1 x0 x1 y = ∑ k : Fin 128, x0 (blkL y k) * x1 (blkR y k) :=
  gemm_pay_at x0 x1 y

/-! ## Region 0: from what each point writes back to the array -/

/-- The index maps over the grid: the point t = 5 k + b stages block (k, b, 0) of the gathered rows and block
    (k, 0, 0) of the weights, and writes back block (k, b, 0) of the output. -/
theorem gemm0_idx : ∀ t : Fin cfg0.N,
    win0_2.index t (0 : Fin 3) = t.val / 5 ∧ win0_2.index t (1 : Fin 3) = t.val % 5 ∧ win0_2.index t (2 : Fin 3) = 0
    ∧ win0_0.index t (0 : Fin 3) = t.val / 5 ∧ win0_0.index t (1 : Fin 3) = t.val % 5 ∧ win0_0.index t (2 : Fin 3) = 0
    ∧ win0_1.index t (0 : Fin 3) = t.val / 5 ∧ win0_1.index t (1 : Fin 3) = 0 ∧ win0_1.index t (2 : Fin 3) = 0 :=
  (by decide +kernel : ∀ t : Fin grid0.N, _)

/-- What the point t writes back is its block of (k, m, d) ↦ ∑ c, g (k, m, c) · w (k, c, d), with g and w the two
    arrays as the region finds them. -/
theorem gemm0_flushed (c : Dev nD) (t : Fin cfg0.N) :
    (dat0 V c).flushed 2 t = ((cfg0.win 2).blk t).view.read (Elt Ideal) (mm (V c main_v7) (V c main_arg1)) := by
  show (cfg0.win 2).cut (grid0.coords t) ((dat0 V c).after 2 t) = _
  rw [after0_2 V c t]
  unfold out0_2
  rw [View.canon_unit_zero zero3]
  simp only [View.ld_unit_zero (S := S1x10000x128) zero3, View.ld_unit_zero (S := S1x128x128) zero3]
  obtain ⟨e20, e21, e22, e00, e01, e02, e10, e11, e12⟩ := gemm0_idx t
  funext j
  show k0_pay1 (iblk0 V c 0 t) (iblk0 V c 1 t) j = mm (V c main_v7) (V c main_arg1) (((cfg0.win 2).blk t).view.emb j)
  refine (gemm_pay_at _ _ j).trans ?_
  refine Finset.sum_congr rfl fun k _ => ?_
  have hj0 : (j 0).val < 1 := (j 0).isLt
  have h0 : ((cfg0.win 0).blk t).view.emb (blkL j k) = lix (((cfg0.win 2).blk t).view.emb j) k := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 10000 + 1 * (j 1).val = win0_2.index t (1 : Fin 3) * 10000 + 1 * (j 1).val; omega
    | ⟨2, _⟩ => show win0_0.index t (2 : Fin 3) * 128 + 1 * k.val = k.val; omega
  have h1 : ((cfg0.win 1).blk t).view.emb (blkR j k) = rix (((cfg0.win 2).blk t).view.emb j) k := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 128 + 1 * k.val = k.val; omega
    | ⟨2, _⟩ => show win0_1.index t (2 : Fin 3) * 128 + 1 * (j 2).val = win0_2.index t (2 : Fin 3) * 128 + 1 * (j 2).val; omega
  refine mul_eq_mul_of_eq ?_ ?_
  · show V c main_v7 (((cfg0.win 0).blk t).view.emb (blkL j k)) = V c main_v7 (lix (((cfg0.win 2).blk t).view.emb j) k)
    rw [h0]
  · show V c main_arg1 (((cfg0.win 1).blk t).view.emb (blkR j k)) = V c main_arg1 (rix (((cfg0.win 2).blk t).view.emb j) k)
    rw [h1]
/-- An index of the output is in the point t's block iff each coordinate is in the block's range on its axis. -/
theorem gemm0_mem_blk (t : Fin cfg0.N) (i : S27x50000x128.Idx) :
    i ∈ ((cfg0.win 2).blk t).view.set ↔ ∀ a : Fin 3, win0_2.index t a * S1x10000x128.size a ≤ (i a).val ∧ (i a).val < win0_2.index t a * S1x10000x128.size a + S1x10000x128.size a := by
  show i ∈ ((View.whole main_v8).slice (win0_2.rect t)).set ↔ _
  rw [View.set_slice_whole, Rect.mem_set_unit]
  exact Iff.rfl

/-- The 135 blocks tile the output: the entry (k, m, d) is in the block of the point 5 k + m / 10000. -/
theorem gemm0_cover (i : S27x50000x128.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 128 := (i 2).isLt
  have hN : cfg0.N = 135 := N_0
  obtain ⟨t, ht⟩ : ∃ t : Fin cfg0.N, t.val = (i 0).val * 5 + (i 1).val / 10000 :=
    ⟨⟨(i 0).val * 5 + (i 1).val / 10000, by rw [hN]; omega⟩, rfl⟩
  obtain ⟨e20, e21, e22, -⟩ := gemm0_idx t
  refine ⟨t, flush0_2 t, ?_⟩
  rw [gemm0_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 128 ≤ (i 2).val ∧ (i 2).val < win0_2.index t (2 : Fin 3) * 128 + 128; omega

/-- The output array after the region: (k, m, d) ↦ ∑ c, g (k, m, c) · w (k, c, d). -/
theorem gemm0_final (c : Dev nD) : (dat0 V c).arrAt 2 cfg0.N = mm (V c main_v7) (V c main_arg1) :=
  (dat0 V c).arrAt_eq_of_cover 2 (mm (V c main_v7) (V c main_arg1)) (fun t _ => gemm0_flushed V c t) gemm0_cover

/-! ## Region 3: from what each point writes back to the array -/

/-- The index maps over the grid: the point t = 5 k + b stages block (k, b, 0) of the gathered rows and block
    (k, 0, 0) of the weights, and writes back block (k, b, 0) of the output. -/
theorem gemm3_idx : ∀ t : Fin cfg3.N,
    win3_2.index t (0 : Fin 3) = t.val / 5 ∧ win3_2.index t (1 : Fin 3) = t.val % 5 ∧ win3_2.index t (2 : Fin 3) = 0
    ∧ win3_0.index t (0 : Fin 3) = t.val / 5 ∧ win3_0.index t (1 : Fin 3) = t.val % 5 ∧ win3_0.index t (2 : Fin 3) = 0
    ∧ win3_1.index t (0 : Fin 3) = t.val / 5 ∧ win3_1.index t (1 : Fin 3) = 0 ∧ win3_1.index t (2 : Fin 3) = 0 :=
  (by decide +kernel : ∀ t : Fin grid3.N, _)

/-- What the point t writes back is its block of (k, m, d) ↦ ∑ c, g (k, m, c) · w (k, c, d), with g and w the two
    arrays as the region finds them. -/
theorem gemm3_flushed (c : Dev nD) (t : Fin cfg3.N) :
    (dat3 V c).flushed 2 t = ((cfg3.win 2).blk t).view.read (Elt Ideal) (mm (V c main_v37) (V c main_arg4)) := by
  show (cfg3.win 2).cut (grid3.coords t) ((dat3 V c).after 2 t) = _
  rw [after3_2 V c t]
  unfold out3_2
  rw [View.canon_unit_zero zero3]
  simp only [View.ld_unit_zero (S := S1x10000x128) zero3, View.ld_unit_zero (S := S1x128x128) zero3]
  obtain ⟨e20, e21, e22, e00, e01, e02, e10, e11, e12⟩ := gemm3_idx t
  funext j
  show k3_pay1 (iblk3 V c 0 t) (iblk3 V c 1 t) j = mm (V c main_v37) (V c main_arg4) (((cfg3.win 2).blk t).view.emb j)
  refine (gemm_pay3_at _ _ j).trans ?_
  refine Finset.sum_congr rfl fun k _ => ?_
  have hj0 : (j 0).val < 1 := (j 0).isLt
  have h0 : ((cfg3.win 0).blk t).view.emb (blkL j k) = lix (((cfg3.win 2).blk t).view.emb j) k := by
    funext a; apply Fin.ext
    match a with
    | ⟨0, _⟩ => show win3_0.index t (0 : Fin 3) * 1 + 1 * 0 = win3_2.index t (0 : Fin 3) * 1 + 1 * (j 0).val; omega
    | ⟨1, _⟩ => show win3_0.index t (1 : Fin 3) * 10000 + 1 * (j 1).val = win3_2.index t (1 : Fin 3) * 10000 + 1 * (j 1).val; omega
    | ⟨2, _⟩ => show win3_0.index t (2 : Fin 3) * 128 + 1 * k.val = k.val; omega
  have h1 : ((cfg3.win 1).blk t).view.emb (blkR j k) = rix (((cfg3.win 2).blk t).view.emb j) k := by
    funext a; apply Fin.ext
    match a with
    | ⟨0, _⟩ => show win3_1.index t (0 : Fin 3) * 1 + 1 * 0 = win3_2.index t (0 : Fin 3) * 1 + 1 * (j 0).val; omega
    | ⟨1, _⟩ => show win3_1.index t (1 : Fin 3) * 128 + 1 * k.val = k.val; omega
    | ⟨2, _⟩ => show win3_1.index t (2 : Fin 3) * 128 + 1 * (j 2).val = win3_2.index t (2 : Fin 3) * 128 + 1 * (j 2).val; omega
  refine mul_eq_mul_of_eq ?_ ?_
  · show V c main_v37 (((cfg3.win 0).blk t).view.emb (blkL j k)) = V c main_v37 (lix (((cfg3.win 2).blk t).view.emb j) k)
    rw [h0]
  · show V c main_arg4 (((cfg3.win 1).blk t).view.emb (blkR j k)) = V c main_arg4 (rix (((cfg3.win 2).blk t).view.emb j) k)
    rw [h1]
/-- An index of the output is in the point t's block iff each coordinate is in the block's range on its axis. -/
theorem gemm3_mem_blk (t : Fin cfg3.N) (i : S27x50000x128.Idx) :
    i ∈ ((cfg3.win 2).blk t).view.set ↔ ∀ a : Fin 3, win3_2.index t a * S1x10000x128.size a ≤ (i a).val ∧ (i a).val < win3_2.index t a * S1x10000x128.size a + S1x10000x128.size a := by
  show i ∈ ((View.whole main_v38).slice (win3_2.rect t)).set ↔ _
  rw [View.set_slice_whole, Rect.mem_set_unit]
  exact Iff.rfl

/-- The 135 blocks tile the output: the entry (k, m, d) is in the block of the point 5 k + m / 10000. -/
theorem gemm3_cover (i : S27x50000x128.Idx) :
    ∃ t : Fin cfg3.N, (cfg3.win 2).flush t = true ∧ i ∈ ((cfg3.win 2).blk t).view.set := by
  have hi0 : (i 0).val < 27 := (i 0).isLt
  have hi1 : (i 1).val < 50000 := (i 1).isLt
  have hi2 : (i 2).val < 128 := (i 2).isLt
  have hN : cfg3.N = 135 := N_3
  obtain ⟨t, ht⟩ : ∃ t : Fin cfg3.N, t.val = (i 0).val * 5 + (i 1).val / 10000 :=
    ⟨⟨(i 0).val * 5 + (i 1).val / 10000, by rw [hN]; omega⟩, rfl⟩
  obtain ⟨e20, e21, e22, -⟩ := gemm3_idx t
  refine ⟨t, flush3_2 t, ?_⟩
  rw [gemm3_mem_blk]
  intro a
  match a with
  | ⟨0, _⟩ => show win3_2.index t (0 : Fin 3) * 1 ≤ (i 0).val ∧ (i 0).val < win3_2.index t (0 : Fin 3) * 1 + 1; omega
  | ⟨1, _⟩ => show win3_2.index t (1 : Fin 3) * 10000 ≤ (i 1).val ∧ (i 1).val < win3_2.index t (1 : Fin 3) * 10000 + 10000; omega
  | ⟨2, _⟩ => show win3_2.index t (2 : Fin 3) * 128 ≤ (i 2).val ∧ (i 2).val < win3_2.index t (2 : Fin 3) * 128 + 128; omega

/-- The output array after the region: (k, m, d) ↦ ∑ c, g (k, m, c) · w (k, c, d). -/
theorem gemm3_final (c : Dev nD) : (dat3 V c).arrAt 2 cfg3.N = mm (V c main_v37) (V c main_arg4) :=
  (dat3 V c).arrAt_eq_of_cover 2 (mm (V c main_v37) (V c main_arg4)) (fun t _ => gemm3_flushed V c t) gemm3_cover

end Cert.KernelIdeal.Regions

end
-- ==== Proof.RegStats.lean ====
/-
  The column sums of the batch-normalisation statistics regions.

  A statistics region walks a [100000, 128] array y in ten blocks of 10000 rows. It keeps two [1, 128] rows whose block
  never moves, so each is carried from point to point and written back once, after the last point. The first point
  stores zero into both rows; every point then adds, to what each row holds, the column sums of the staged block — for
  the second row, of the block's squares. After the last point row one holds
      ((0 + b₀) + b₁) + … + b₉,   b_t (d) = ∑ r < 10000, y (10000·t + r, d),
  which is ∑ n < 100000, y (n, d): on the extended reals addition is commutative and associative, so regrouping a sum
  into consecutive runs asks nothing of the terms (no finiteness). Row two holds the same sum of y².

  The proof reads each point's stores as the two additions above, carries the partial sums
      ∑ k < 10000·(t + 1), y (k, d)
  through the points by induction, and reads the one write-back, whose block is the whole [1, 128] array.
-/
import proofs.«135215_j8418135900537_2_alg».proof.Proof.Gen.KernelIdeal.Frame
import proofs.«135215_j8418135900537_2_alg».proof.Proof.Spec
import Idealize.ShloMosaic.Lib.Pipeline.Value
import Idealize.ShloMosaic.PureOps.Ideal.Laws

set_option maxRecDepth 16384

noncomputable section

namespace Cert.KernelIdeal.Regions

open Cert.KernelIdeal Cert.KernelIdeal.Gen Cert.ResBlock
open Idealize.ShloMosaic Idealize.ShloMosaic.TcCoe Idealize.SL.Sem
open Idealize.ShloMosaic.ValueIdx
open scoped BigOperators

/-! ## Shared: a block's column sums at an index, and a sum taken in runs of 10000 -/

theorem hz2 : (![0, 0] : Fin 2 → Nat) = fun _ => 0 := funext fun a => by fin_cases a <;> rfl

/-- The column sums of a [10000, 128] block, stored as a [1, 128] row: at (0, d) the sum over the 10000 rows of the
    block's column d. -/
theorem blockColSum_apply (y : FVec Ideal S10000x128 .f32) (j : S1x128.Idx) :
    shapeCast S1x128 (multiReduction (F := Ideal) .add [0] S128 y 0x00000000#32 reduces_S10000x128_S128 (.inl rfl) rfl)
        shapeCasts_S128_S1x128 j
      = ∑ r : Fin 10000, y (ix2 r (col1 j)) := by
  refine (shapeCast_addUnit_apply ![128] _ shapeCasts_S128_S1x128 j).trans ?_
  refine (Ideal.multiReduction_add_single y 0x00000000#32 reduces_S10000x128_S128 (.inl rfl) rfl _).trans ?_
  show ∑ r : Fin 10000, y (reduces_S10000x128_S128.lift (fun a => j a.succ) r) = _
  refine Finset.sum_congr rfl fun r _ => congrArg y ?_
  funext a
  apply Fin.ext
  match a with
  | ⟨0, _⟩ => rfl
  | ⟨1, _⟩ => rfl

/-- Column d of an [N, C] array as a sequence: entry (k, d) for k below N, and 0 past the end (never read). -/
def colSeq (y : FVec Ideal S100000x128 .f32) (d : Fin 128) (k : ℕ) : EReal :=
  if h : k < 100000 then y (rc ⟨k, h⟩ d) else 0

/-- The whole column's sum is the sum of the sequence's first N terms. -/
theorem colSum_eq_range (y : FVec Ideal S100000x128 .f32) (d : Fin 128) :
    colSum y d = ∑ k ∈ Finset.range 100000, colSeq y d k := by
  unfold colSum
  rw [Finset.sum_range]
  exact Finset.sum_congr rfl fun n _ => by unfold colSeq; rw [dif_pos n.isLt]

/-- One more run of 10000 terms: a partial sum over the first 10000·n terms, plus the next 10000 terms, is the partial
    sum over the first 10000·(n + 1) terms. Only the grouping of the additions changes. -/
theorem add_run {M : Type*} [AddCommMonoid M] (g : ℕ → M) (n : ℕ) (f : Fin 10000 → M)
    (hf : ∀ r : Fin 10000, f r = g (10000 * n + r.val)) (acc : M)
    (hacc : acc = ∑ k ∈ Finset.range (10000 * n), g k) :
    acc + ∑ r, f r = ∑ k ∈ Finset.range (10000 * (n + 1)), g k := by
  rw [Nat.mul_succ, Finset.sum_range_add, hacc, Finset.sum_range (fun r => g (10000 * n + r))]
  exact congrArg _ (Finset.sum_congr rfl fun r _ => hf r)

/-- The zero the first point stores is the empty partial sum. -/
theorem zero_eq_empty_sum (g : ℕ → EReal) (z : EReal) (hz : z = 0) (n : ℕ) (hn : n = 0) :
    z = ∑ k ∈ Finset.range (10000 * n), g k := by
  subst hn; subst hz; simp

/-! ## Region 1: the statistics of the first convolution's output -/

section Pieces1
variable {F : FTy → Type} [FloatOps F]

/-- A later point's one store into the first row: the sum payload of the staged block and of what the row held. -/
theorem out1_B_1_eq (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S10000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero (S := S1x128) hz2]
  simp only [View.readAt_eq_ld, h1.read_unread, h2.read_unread, View.ld_unit_zero (S := S10000x128) hz2,
    View.ld_unit_zero (S := S1x128) hz2]

/-- A later point's one store into the second row: the squares payload of the staged block and of what the row held. -/
theorem out1_B_2_eq (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S10000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero (S := S1x128) hz2]
  simp only [View.readAt_eq_ld, h1.read_unread, h3.read_unread, View.ld_unit_zero (S := S10000x128) hz2,
    View.ld_unit_zero (S := S1x128) hz2]

/-- The first point stores zero into the first row, reads it back, and stores the sum payload over it. -/
theorem out1_A_1_eq (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S10000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz2, View.readCov_unit_zero (S := S1x128) _ hz2]
  simp only [View.readAt_eq_ld, h1.read_unread, View.ld_unit_zero (S := S10000x128) hz2]

/-- The first point stores zero into the second row, reads it back, and stores the squares payload over it. -/
theorem out1_A_2_eq (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S10000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz2, View.readCov_unit_zero (S := S1x128) _ hz2]
  simp only [View.readAt_eq_ld, h1.read_unread, View.ld_unit_zero (S := S10000x128) hz2]

end Pieces1

section Payloads1

/-- The sum payload at (0, d): what the row held there plus the block's column sum. -/
theorem k1_pay4_apply (x : Vec Ideal S10000x128 .f32) (acc : Vec Ideal S1x128 .f32) (j : S1x128.Idx) :
    k1_pay4 (F := Ideal) x acc j = acc j + ∑ r : Fin 10000, x (ix2 r (col1 j)) := by
  unfold k1_pay4 k1_pay3
  refine (addf_apply _ _ j).trans ?_
  refine congrArg₂ (· + ·) (congrFun (shapeCast_self acc _) j) ?_
  refine (blockColSum_apply _ j).trans ?_
  exact Finset.sum_congr rfl fun r _ => congrFun (shapeCast_self x _) _

/-- The squares payload at (0, d): what the row held there plus the column sum of the block's squares. -/
theorem k1_pay5_apply (x : Vec Ideal S10000x128 .f32) (acc : Vec Ideal S1x128 .f32) (j : S1x128.Idx) :
    k1_pay5 (F := Ideal) x acc j = acc j + ∑ r : Fin 10000, x (ix2 r (col1 j)) * x (ix2 r (col1 j)) := by
  unfold k1_pay5 k1_pay3
  refine (addf_apply _ _ j).trans ?_
  refine congrArg₂ (· + ·) (congrFun (shapeCast_self acc _) j) ?_
  refine (blockColSum_apply _ j).trans ?_
  refine Finset.sum_congr rfl fun r _ => ?_
  refine (mulf_apply _ _ _).trans ?_
  rw [shapeCast_self]

/-- The stored zero word is the extended real 0. -/
theorem k1_pay1_apply (j : S1x128.Idx) : k1_pay1 (F := Ideal) j = 0 := by
  unfold k1_pay1
  exact Ideal.ofBits_zero_f32

/-- The stored zero word is the extended real 0. -/
theorem k1_pay2_apply (j : S1x128.Idx) : k1_pay2 (F := Ideal) j = 0 := by
  unfold k1_pay2
  exact Ideal.ofBits_zero_f32

end Payloads1

section Region1

variable (V : (c : Dev nD) → (b : Ref sig .tc) → Buf (Elt Ideal) ((c : Thread nD τ).loc b))

/-- The block staged at point t, as a [10000, 128] array. -/
abbrev blk1 (c : Dev nD) (t : Fin cfg1.N) : Vec Ideal S10000x128 .f32 := iblk1 V c 0 t

/-- The staged block of point t is block (t, 0) of the [100000, 128] array. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Entry (r, d) of the block staged at point t is entry (10000·t + r, d) of the array. -/
theorem iblk1_apply (c : Dev nD) (t : Fin cfg1.N) (r : Fin 10000) (d : Fin 128) (k : Fin 100000)
    (hk : k.val = 10000 * t.val + r.val) :
    blk1 V c t (ix2 r d) = V c main_v17 (rc k d) := by
  unfold blk1 iblk1
  rw [View.read_apply]
  show V c main_v17 _ = V c main_v17 _
  refine congrArg (V c main_v17) ?_
  funext a
  apply Fin.ext
  match a with
  | ⟨0, _⟩ => show win1_0.index t 0 * 10000 + 1 * r.val = k.val; rw [(idx1_0 t).1, hk]; omega
  | ⟨1, _⟩ => show win1_0.index t 1 * 128 + 1 * d.val = d.val; rw [(idx1_0 t).2]; omega

/-- So it is term 10000·t + r of column d's sequence, -/
theorem run1_term (c : Dev nD) (t : Fin cfg1.N) (d : Fin 128) (r : Fin 10000) :
    blk1 V c t (ix2 r d) = colSeq (V c main_v17) d (10000 * t.val + r.val) := by
  have hN : t.val < 10 := lt_of_lt_of_eq t.isLt (show cfg1.N = 10 from N_1)
  have hk : 10000 * t.val + r.val < 100000 := by have := r.isLt; omega
  unfold colSeq
  rw [dif_pos hk]
  exact iblk1_apply V c t r d ⟨_, hk⟩ rfl

/-- and its square is the same term of the squared array's column. -/
theorem run1_term_sq (c : Dev nD) (t : Fin cfg1.N) (d : Fin 128) (r : Fin 10000) :
    blk1 V c t (ix2 r d) * blk1 V c t (ix2 r d)
      = colSeq (sq (V c main_v17)) d (10000 * t.val + r.val) := by
  have hN : t.val < 10 := lt_of_lt_of_eq t.isLt (show cfg1.N = 10 from N_1)
  have hk : 10000 * t.val + r.val < 100000 := by have := r.isLt; omega
  unfold colSeq
  rw [dif_pos hk, iblk1_apply V c t r d ⟨_, hk⟩ rfl]
  rfl

/-- The body's first store at point t, over a buffer holding the partial column sums of the rows before the block's,
    leaves the partial sums of the rows up to the block's end. -/
theorem point1_sum (c : Dev nD) (t : Fin cfg1.N) (j : S1x128.Idx) (acc : Vec Ideal S1x128 .f32)
    (hacc : acc j = ∑ k ∈ Finset.range (10000 * t.val), colSeq (V c main_v17) (col1 j) k) :
    k1_pay4 (F := Ideal) (blk1 V c t) acc j
      = ∑ k ∈ Finset.range (10000 * (t.val + 1)), colSeq (V c main_v17) (col1 j) k :=
  (k1_pay4_apply (blk1 V c t) acc j).trans
    (add_run (colSeq (V c main_v17) (col1 j)) t.val _ (fun r => run1_term V c t (col1 j) r) _ hacc)

/-- The same for the second store and the sums of squares. -/
theorem point1_sq (c : Dev nD) (t : Fin cfg1.N) (j : S1x128.Idx) (acc : Vec Ideal S1x128 .f32)
    (hacc : acc j = ∑ k ∈ Finset.range (10000 * t.val), colSeq (sq (V c main_v17)) (col1 j) k) :
    k1_pay5 (F := Ideal) (blk1 V c t) acc j
      = ∑ k ∈ Finset.range (10000 * (t.val + 1)), colSeq (sq (V c main_v17)) (col1 j) k :=
  (k1_pay5_apply (blk1 V c t) acc j).trans
    (add_run (colSeq (sq (V c main_v17)) (col1 j)) t.val _ (fun r => run1_term_sq V c t (col1 j) r) _ hacc)

/-- The first point: the buffers are zeroed, then the first block's sums are added. -/
theorem outs1_first (c : Dev nD) (t : Fin cfg1.N) (h0 : t.val % 10 = 0) (ht : t.val = 0) (j : S1x128.Idx) :
    (outsAt1 V c t.val t.isLt).1 j = ∑ k ∈ Finset.range (10000 * (t.val + 1)), colSeq (V c main_v17) (col1 j) k
    ∧ (outsAt1 V c t.val t.isLt).2 j = ∑ k ∈ Finset.range (10000 * (t.val + 1)), colSeq (sq (V c main_v17)) (col1 j) k := by
  rw [outsAt1_A V c t h0]
  constructor
  · refine (congrFun (out1_A_1_eq (F := Ideal) c (grid1.coords t) (ms1_0 t) (hs1_0 t) (ms1_1 t) (hs1_1 t) (ms1_2 t)
      (hs1_2 t) ((hcond1_0 t).mpr h0) (iblk1 V c 0 t)) j).trans ?_
    exact point1_sum V c t j (k1_pay1 (F := Ideal)) (zero_eq_empty_sum _ _ (k1_pay1_apply j) _ ht)
  · refine (congrFun (out1_A_2_eq (F := Ideal) c (grid1.coords t) (ms1_0 t) (hs1_0 t) (ms1_1 t) (hs1_1 t) (ms1_2 t)
      (hs1_2 t) ((hcond1_0 t).mpr h0) (iblk1 V c 0 t)) j).trans ?_
    exact point1_sq V c t j (k1_pay2 (F := Ideal)) (zero_eq_empty_sum _ _ (k1_pay2_apply j) _ ht)

/-- A later point: the block's sums are added to what the point before left. -/
theorem outs1_step (c : Dev nD) (t : Fin cfg1.N) (hB : ¬t.val % 10 = 0) (j : S1x128.Idx)
    (ih1 : (outsAt1 V c (t.val - 1) (Nat.lt_of_le_of_lt (Nat.sub_le _ _) t.isLt)).1 j
      = ∑ k ∈ Finset.range (10000 * t.val), colSeq (V c main_v17) (col1 j) k)
    (ih2 : (outsAt1 V c (t.val - 1) (Nat.lt_of_le_of_lt (Nat.sub_le _ _) t.isLt)).2 j
      = ∑ k ∈ Finset.range (10000 * t.val), colSeq (sq (V c main_v17)) (col1 j) k) :
    (outsAt1 V c t.val t.isLt).1 j = ∑ k ∈ Finset.range (10000 * (t.val + 1)), colSeq (V c main_v17) (col1 j) k
    ∧ (outsAt1 V c t.val t.isLt).2 j = ∑ k ∈ Finset.range (10000 * (t.val + 1)), colSeq (sq (V c main_v17)) (col1 j) k := by
  rw [outsAt1_B V c t hB]
  constructor
  · refine (congrFun (out1_B_1_eq (F := Ideal) c (grid1.coords t) (ms1_0 t) (hs1_0 t) (ms1_1 t) (hs1_1 t) (ms1_2 t)
      (hs1_2 t) (fun hh => hB ((hcond1_0 t).mp hh)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2) j).trans ?_
    exact point1_sum V c t j _ ih1
  · refine (congrFun (out1_B_2_eq (F := Ideal) c (grid1.coords t) (ms1_0 t) (hs1_0 t) (ms1_1 t) (hs1_1 t) (ms1_2 t)
      (hs1_2 t) (fun hh => hB ((hcond1_0 t).mp hh)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2) j).trans ?_
    exact point1_sq V c t j _ ih2

/-- After point n the two output buffers hold the partial sums, over the first 10000·(n + 1) rows, of each column
    and of each column's squares: by induction on the point. -/
theorem outs1_eq (c : Dev nD) : ∀ (n : ℕ) (h : n < cfg1.N) (j : S1x128.Idx),
    (outsAt1 V c n h).1 j = ∑ k ∈ Finset.range (10000 * (n + 1)), colSeq (V c main_v17) (col1 j) k
    ∧ (outsAt1 V c n h).2 j = ∑ k ∈ Finset.range (10000 * (n + 1)), colSeq (sq (V c main_v17)) (col1 j) k
  | 0, h, j => outs1_first V c ⟨0, h⟩ rfl rfl j
  | n + 1, h, j => by
    have hN : cfg1.N = 10 := N_1
    have hB : ¬(⟨n + 1, h⟩ : Fin cfg1.N).val % 10 = 0 := by dsimp only; omega
    have same : ∀ (u : ℕ) (hu : u < cfg1.N), u = n → outsAt1 V c u hu = outsAt1 V c n (Nat.lt_of_succ_lt h) :=
      fun u hu e => by subst e; rfl
    have hp := same ((⟨n + 1, h⟩ : Fin cfg1.N).val - 1)
      (Nat.lt_of_le_of_lt (Nat.sub_le _ _) (⟨n + 1, h⟩ : Fin cfg1.N).isLt) (by show n + 1 - 1 = n; omega)
    have ih := outs1_eq c n (Nat.lt_of_succ_lt h) j
    exact outs1_step V c ⟨n + 1, h⟩ hB j (by rw [hp]; exact ih.1) (by rw [hp]; exact ih.2)

end Region1

section Final1
open Idealize.ShloMosaic.Pipeline (Dat)

variable (V : (c : Dev nD) → (b : Ref sig .tc) → Buf (Elt Ideal) ((c : Thread nD τ).loc b))

/-- The last point writes output 1's buffer back to the [1, 128] array, whose one block is the whole array: whatever the
    buffer then holds is what the array ends holding. -/
theorem final1_1_of (c : Dev nD) (G : Buf (Elt Ideal) ((cfg1.win 1).arr.view.loc (c.tc : Thread nD τ)))
    (hG : (outsAt1 V c t1_9.val t1_9.isLt).1 = G) : (dat1 V c).arrAt 1 cfg1.N = G := by
  have hN : cfg1.N = 10 := N_1
  refine (dat1 V c).arrAt_eq_of_cover 1 G (fun t hf => ?_) (fun i => ?_)
  · have h9 : t.val = 9 := by have := (flush1_1 t).mp hf; have := t.isLt; omega
    obtain rfl : t = t1_9 := Fin.ext h9
    show (cfg1.win 1).cut (grid1.coords t1_9) ((dat1 V c).after 1 t1_9) = _
    rw [after1_1, hG]
    have hz' : (fun a => win1_1.index t1_9 a * main_v18_0.ty.shape.size a) = fun _ => 0 :=
      funext fun a => by fin_cases a <;> decide
    exact (Memref.read_access_unit_zero (Elt Ideal) main_v18_0 hz' (fun a => by rw [congrFun hz' a]; simp) G).symm
  · refine ⟨t1_9, (flush1_1 t1_9).mpr rfl, ?_⟩
    show i ∈ ((View.whole main_v18_0).slice (win1_1.rect t1_9)).set
    rw [View.set_slice_whole, Rect.mem_set_unit]
    intro a
    have h0 : (i 0 : Nat) < 1 := (i 0).isLt
    have h1 : (i 1 : Nat) < 128 := (i 1).isLt
    match a with
    | ⟨0, _⟩ =>
      show win1_1.index t1_9 0 * win1_1.size 0 ≤ (i 0 : Nat)
        ∧ (i 0 : Nat) < win1_1.index t1_9 0 * win1_1.size 0 + win1_1.xsize (grid1.coords t1_9) 0
      rw [show win1_1.index t1_9 0 * win1_1.size 0 = 0 from by decide +kernel,
        show win1_1.xsize (grid1.coords t1_9) 0 = 1 from by decide +kernel]
      omega
    | ⟨1, _⟩ =>
      show win1_1.index t1_9 1 * win1_1.size 1 ≤ (i 1 : Nat)
        ∧ (i 1 : Nat) < win1_1.index t1_9 1 * win1_1.size 1 + win1_1.xsize (grid1.coords t1_9) 1
      rw [show win1_1.index t1_9 1 * win1_1.size 1 = 0 from by decide +kernel,
        show win1_1.xsize (grid1.coords t1_9) 1 = 128 from by decide +kernel]
      omega

/-- The last point writes output 2's buffer back to the [1, 128] array, whose one block is the whole array: whatever the
    buffer then holds is what the array ends holding. -/
theorem final1_2_of (c : Dev nD) (G : Buf (Elt Ideal) ((cfg1.win 2).arr.view.loc (c.tc : Thread nD τ)))
    (hG : (outsAt1 V c t1_9.val t1_9.isLt).2 = G) : (dat1 V c).arrAt 2 cfg1.N = G := by
  have hN : cfg1.N = 10 := N_1
  refine (dat1 V c).arrAt_eq_of_cover 2 G (fun t hf => ?_) (fun i => ?_)
  · have h9 : t.val = 9 := by have := (flush1_2 t).mp hf; have := t.isLt; omega
    obtain rfl : t = t1_9 := Fin.ext h9
    show (cfg1.win 2).cut (grid1.coords t1_9) ((dat1 V c).after 2 t1_9) = _
    rw [after1_2, hG]
    have hz' : (fun a => win1_2.index t1_9 a * main_v18_1.ty.shape.size a) = fun _ => 0 :=
      funext fun a => by fin_cases a <;> decide
    exact (Memref.read_access_unit_zero (Elt Ideal) main_v18_1 hz' (fun a => by rw [congrFun hz' a]; simp) G).symm
  · refine ⟨t1_9, (flush1_2 t1_9).mpr rfl, ?_⟩
    show i ∈ ((View.whole main_v18_1).slice (win1_2.rect t1_9)).set
    rw [View.set_slice_whole, Rect.mem_set_unit]
    intro a
    have h0 : (i 0 : Nat) < 1 := (i 0).isLt
    have h1 : (i 1 : Nat) < 128 := (i 1).isLt
    match a with
    | ⟨0, _⟩ =>
      show win1_2.index t1_9 0 * win1_2.size 0 ≤ (i 0 : Nat)
        ∧ (i 0 : Nat) < win1_2.index t1_9 0 * win1_2.size 0 + win1_2.xsize (grid1.coords t1_9) 0
      rw [show win1_2.index t1_9 0 * win1_2.size 0 = 0 from by decide +kernel,
        show win1_2.xsize (grid1.coords t1_9) 0 = 1 from by decide +kernel]
      omega
    | ⟨1, _⟩ =>
      show win1_2.index t1_9 1 * win1_2.size 1 ≤ (i 1 : Nat)
        ∧ (i 1 : Nat) < win1_2.index t1_9 1 * win1_2.size 1 + win1_2.xsize (grid1.coords t1_9) 1
      rw [show win1_2.index t1_9 1 * win1_2.size 1 = 0 from by decide +kernel,
        show win1_2.xsize (grid1.coords t1_9) 1 = 128 from by decide +kernel]
      omega

/-- The last point ends at row 100000: the partial sums there are the whole columns' sums. -/
theorem last1_rows : 10000 * (t1_9.val + 1) = 100000 := rfl

/-- After the last point the first output buffer holds every column's sum, -/
theorem last1_sum (c : Dev nD) :
    (outsAt1 V c t1_9.val t1_9.isLt).1 = fun j => colSum (V c main_v17) (col1 j) :=
  funext fun j => by
    rw [(outs1_eq V c t1_9.val t1_9.isLt j).1, last1_rows, colSum_eq_range]

/-- and the second the sum of every column's squares. -/
theorem last1_sq (c : Dev nD) :
    (outsAt1 V c t1_9.val t1_9.isLt).2 = fun j => colSum (sq (V c main_v17)) (col1 j) :=
  funext fun j => by
    rw [(outs1_eq V c t1_9.val t1_9.isLt j).2, last1_rows, colSum_eq_range]

theorem stats1_final_sum (c : Dev nD) :
    (dat1 V c).arrAt 1 cfg1.N = fun j => colSum (V c main_v17) (col1 j) :=
  final1_1_of V c _ (last1_sum V c)

theorem stats1_final_sq (c : Dev nD) :
    (dat1 V c).arrAt 2 cfg1.N = fun j => colSum (sq (V c main_v17)) (col1 j) :=
  final1_2_of V c _ (last1_sq V c)

end Final1

/-! ## Region 4: the statistics of the second convolution's output -/

section Pieces4
variable {F : FTy → Type} [FloatOps F]

/-- A later point's one store into the first row: the sum payload of the staged block and of what the row held. -/
theorem out4_B_1_eq (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S10000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero (S := S1x128) hz2]
  simp only [View.readAt_eq_ld, h1.read_unread, h2.read_unread, View.ld_unit_zero (S := S10000x128) hz2,
    View.ld_unit_zero (S := S1x128) hz2]

/-- A later point's one store into the second row: the squares payload of the staged block and of what the row held. -/
theorem out4_B_2_eq (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S10000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero (S := S1x128) hz2]
  simp only [View.readAt_eq_ld, h1.read_unread, h3.read_unread, View.ld_unit_zero (S := S10000x128) hz2,
    View.ld_unit_zero (S := S1x128) hz2]

/-- The first point stores zero into the first row, reads it back, and stores the sum payload over it. -/
theorem out4_A_1_eq (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S10000x128 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz2, View.readCov_unit_zero (S := S1x128) _ hz2]
  simp only [View.readAt_eq_ld, h1.read_unread, View.ld_unit_zero (S := S10000x128) hz2]

/-- The first point stores zero into the second row, reads it back, and stores the squares payload over it. -/
theorem out4_A_2_eq (c : Dev nD) (i : grid4.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S10000x128 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz2, View.readCov_unit_zero (S := S1x128) _ hz2]
  simp only [View.readAt_eq_ld, h1.read_unread, View.ld_unit_zero (S := S10000x128) hz2]

end Pieces4

section Payloads4

/-- The sum payload at (0, d): what the row held there plus the block's column sum. -/
theorem k4_pay4_apply (x : Vec Ideal S10000x128 .f32) (acc : Vec Ideal S1x128 .f32) (j : S1x128.Idx) :
    k4_pay4 (F := Ideal) x acc j = acc j + ∑ r : Fin 10000, x (ix2 r (col1 j)) := by
  unfold k4_pay4 k4_pay3
  refine (addf_apply _ _ j).trans ?_
  refine congrArg₂ (· + ·) (congrFun (shapeCast_self acc _) j) ?_
  refine (blockColSum_apply _ j).trans ?_
  exact Finset.sum_congr rfl fun r _ => congrFun (shapeCast_self x _) _

/-- The squares payload at (0, d): what the row held there plus the column sum of the block's squares. -/
theorem k4_pay5_apply (x : Vec Ideal S10000x128 .f32) (acc : Vec Ideal S1x128 .f32) (j : S1x128.Idx) :
    k4_pay5 (F := Ideal) x acc j = acc j + ∑ r : Fin 10000, x (ix2 r (col1 j)) * x (ix2 r (col1 j)) := by
  unfold k4_pay5 k4_pay3
  refine (addf_apply _ _ j).trans ?_
  refine congrArg₂ (· + ·) (congrFun (shapeCast_self acc _) j) ?_
  refine (blockColSum_apply _ j).trans ?_
  refine Finset.sum_congr rfl fun r _ => ?_
  refine (mulf_apply _ _ _).trans ?_
  rw [shapeCast_self]

/-- The stored zero word is the extended real 0. -/
theorem k4_pay1_apply (j : S1x128.Idx) : k4_pay1 (F := Ideal) j = 0 := by
  unfold k4_pay1
  exact Ideal.ofBits_zero_f32

/-- The stored zero word is the extended real 0. -/
theorem k4_pay2_apply (j : S1x128.Idx) : k4_pay2 (F := Ideal) j = 0 := by
  unfold k4_pay2
  exact Ideal.ofBits_zero_f32

end Payloads4

section Region4

variable (V : (c : Dev nD) → (b : Ref sig .tc) → Buf (Elt Ideal) ((c : Thread nD τ).loc b))

/-- The block staged at point t, as a [10000, 128] array. -/
abbrev blk4 (c : Dev nD) (t : Fin cfg4.N) : Vec Ideal S10000x128 .f32 := iblk4 V c 0 t

/-- The staged block of point t is block (t, 0) of the [100000, 128] array. -/
theorem idx4_0 : ∀ t : Fin cfg4.N, win4_0.index t 0 = t.val ∧ win4_0.index t 1 = 0 :=
  (by decide +kernel : ∀ t : Fin grid4.N, win4_0.index t 0 = t.val ∧ win4_0.index t 1 = 0)

/-- Entry (r, d) of the block staged at point t is entry (10000·t + r, d) of the array. -/
theorem iblk4_apply (c : Dev nD) (t : Fin cfg4.N) (r : Fin 10000) (d : Fin 128) (k : Fin 100000)
    (hk : k.val = 10000 * t.val + r.val) :
    blk4 V c t (ix2 r d) = V c main_v47 (rc k d) := by
  unfold blk4 iblk4
  rw [View.read_apply]
  show V c main_v47 _ = V c main_v47 _
  refine congrArg (V c main_v47) ?_
  funext a
  apply Fin.ext
  match a with
  | ⟨0, _⟩ => show win4_0.index t 0 * 10000 + 1 * r.val = k.val; rw [(idx4_0 t).1, hk]; omega
  | ⟨1, _⟩ => show win4_0.index t 1 * 128 + 1 * d.val = d.val; rw [(idx4_0 t).2]; omega

/-- So it is term 10000·t + r of column d's sequence, -/
theorem run4_term (c : Dev nD) (t : Fin cfg4.N) (d : Fin 128) (r : Fin 10000) :
    blk4 V c t (ix2 r d) = colSeq (V c main_v47) d (10000 * t.val + r.val) := by
  have hN : t.val < 10 := lt_of_lt_of_eq t.isLt (show cfg4.N = 10 from N_4)
  have hk : 10000 * t.val + r.val < 100000 := by have := r.isLt; omega
  unfold colSeq
  rw [dif_pos hk]
  exact iblk4_apply V c t r d ⟨_, hk⟩ rfl

/-- and its square is the same term of the squared array's column. -/
theorem run4_term_sq (c : Dev nD) (t : Fin cfg4.N) (d : Fin 128) (r : Fin 10000) :
    blk4 V c t (ix2 r d) * blk4 V c t (ix2 r d)
      = colSeq (sq (V c main_v47)) d (10000 * t.val + r.val) := by
  have hN : t.val < 10 := lt_of_lt_of_eq t.isLt (show cfg4.N = 10 from N_4)
  have hk : 10000 * t.val + r.val < 100000 := by have := r.isLt; omega
  unfold colSeq
  rw [dif_pos hk, iblk4_apply V c t r d ⟨_, hk⟩ rfl]
  rfl

/-- The body's first store at point t, over a buffer holding the partial column sums of the rows before the block's,
    leaves the partial sums of the rows up to the block's end. -/
theorem point4_sum (c : Dev nD) (t : Fin cfg4.N) (j : S1x128.Idx) (acc : Vec Ideal S1x128 .f32)
    (hacc : acc j = ∑ k ∈ Finset.range (10000 * t.val), colSeq (V c main_v47) (col1 j) k) :
    k4_pay4 (F := Ideal) (blk4 V c t) acc j
      = ∑ k ∈ Finset.range (10000 * (t.val + 1)), colSeq (V c main_v47) (col1 j) k :=
  (k4_pay4_apply (blk4 V c t) acc j).trans
    (add_run (colSeq (V c main_v47) (col1 j)) t.val _ (fun r => run4_term V c t (col1 j) r) _ hacc)

/-- The same for the second store and the sums of squares. -/
theorem point4_sq (c : Dev nD) (t : Fin cfg4.N) (j : S1x128.Idx) (acc : Vec Ideal S1x128 .f32)
    (hacc : acc j = ∑ k ∈ Finset.range (10000 * t.val), colSeq (sq (V c main_v47)) (col1 j) k) :
    k4_pay5 (F := Ideal) (blk4 V c t) acc j
      = ∑ k ∈ Finset.range (10000 * (t.val + 1)), colSeq (sq (V c main_v47)) (col1 j) k :=
  (k4_pay5_apply (blk4 V c t) acc j).trans
    (add_run (colSeq (sq (V c main_v47)) (col1 j)) t.val _ (fun r => run4_term_sq V c t (col1 j) r) _ hacc)

/-- The first point: the buffers are zeroed, then the first block's sums are added. -/
theorem outs4_first (c : Dev nD) (t : Fin cfg4.N) (h0 : t.val % 10 = 0) (ht : t.val = 0) (j : S1x128.Idx) :
    (outsAt4 V c t.val t.isLt).1 j = ∑ k ∈ Finset.range (10000 * (t.val + 1)), colSeq (V c main_v47) (col1 j) k
    ∧ (outsAt4 V c t.val t.isLt).2 j = ∑ k ∈ Finset.range (10000 * (t.val + 1)), colSeq (sq (V c main_v47)) (col1 j) k := by
  rw [outsAt4_A V c t h0]
  constructor
  · refine (congrFun (out4_A_1_eq (F := Ideal) c (grid4.coords t) (ms4_0 t) (hs4_0 t) (ms4_1 t) (hs4_1 t) (ms4_2 t)
      (hs4_2 t) ((hcond4_0 t).mpr h0) (iblk4 V c 0 t)) j).trans ?_
    exact point4_sum V c t j (k4_pay1 (F := Ideal)) (zero_eq_empty_sum _ _ (k4_pay1_apply j) _ ht)
  · refine (congrFun (out4_A_2_eq (F := Ideal) c (grid4.coords t) (ms4_0 t) (hs4_0 t) (ms4_1 t) (hs4_1 t) (ms4_2 t)
      (hs4_2 t) ((hcond4_0 t).mpr h0) (iblk4 V c 0 t)) j).trans ?_
    exact point4_sq V c t j (k4_pay2 (F := Ideal)) (zero_eq_empty_sum _ _ (k4_pay2_apply j) _ ht)

/-- A later point: the block's sums are added to what the point before left. -/
theorem outs4_step (c : Dev nD) (t : Fin cfg4.N) (hB : ¬t.val % 10 = 0) (j : S1x128.Idx)
    (ih1 : (outsAt4 V c (t.val - 1) (Nat.lt_of_le_of_lt (Nat.sub_le _ _) t.isLt)).1 j
      = ∑ k ∈ Finset.range (10000 * t.val), colSeq (V c main_v47) (col1 j) k)
    (ih2 : (outsAt4 V c (t.val - 1) (Nat.lt_of_le_of_lt (Nat.sub_le _ _) t.isLt)).2 j
      = ∑ k ∈ Finset.range (10000 * t.val), colSeq (sq (V c main_v47)) (col1 j) k) :
    (outsAt4 V c t.val t.isLt).1 j = ∑ k ∈ Finset.range (10000 * (t.val + 1)), colSeq (V c main_v47) (col1 j) k
    ∧ (outsAt4 V c t.val t.isLt).2 j = ∑ k ∈ Finset.range (10000 * (t.val + 1)), colSeq (sq (V c main_v47)) (col1 j) k := by
  rw [outsAt4_B V c t hB]
  constructor
  · refine (congrFun (out4_B_1_eq (F := Ideal) c (grid4.coords t) (ms4_0 t) (hs4_0 t) (ms4_1 t) (hs4_1 t) (ms4_2 t)
      (hs4_2 t) (fun hh => hB ((hcond4_0 t).mp hh)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2) j).trans ?_
    exact point4_sum V c t j _ ih1
  · refine (congrFun (out4_B_2_eq (F := Ideal) c (grid4.coords t) (ms4_0 t) (hs4_0 t) (ms4_1 t) (hs4_1 t) (ms4_2 t)
      (hs4_2 t) (fun hh => hB ((hcond4_0 t).mp hh)) (iblk4 V c 0 t)
      (outsAt4 V c (t.val - 1) (Nat.lt_of_le_of_lt (Nat.sub_le _ _) t.isLt)).1
      (outsAt4 V c (t.val - 1) (Nat.lt_of_le_of_lt (Nat.sub_le _ _) t.isLt)).2) j).trans ?_
    exact point4_sq V c t j _ ih2

/-- After point n the two output buffers hold the partial sums, over the first 10000·(n + 1) rows, of each column
    and of each column's squares: by induction on the point. -/
theorem outs4_eq (c : Dev nD) : ∀ (n : ℕ) (h : n < cfg4.N) (j : S1x128.Idx),
    (outsAt4 V c n h).1 j = ∑ k ∈ Finset.range (10000 * (n + 1)), colSeq (V c main_v47) (col1 j) k
    ∧ (outsAt4 V c n h).2 j = ∑ k ∈ Finset.range (10000 * (n + 1)), colSeq (sq (V c main_v47)) (col1 j) k
  | 0, h, j => outs4_first V c ⟨0, h⟩ rfl rfl j
  | n + 1, h, j => by
    have hN : cfg4.N = 10 := N_4
    have hB : ¬(⟨n + 1, h⟩ : Fin cfg4.N).val % 10 = 0 := by dsimp only; omega
    have same : ∀ (u : ℕ) (hu : u < cfg4.N), u = n → outsAt4 V c u hu = outsAt4 V c n (Nat.lt_of_succ_lt h) :=
      fun u hu e => by subst e; rfl
    have hp := same ((⟨n + 1, h⟩ : Fin cfg4.N).val - 1)
      (Nat.lt_of_le_of_lt (Nat.sub_le _ _) (⟨n + 1, h⟩ : Fin cfg4.N).isLt) (by show n + 1 - 1 = n; omega)
    have ih := outs4_eq c n (Nat.lt_of_succ_lt h) j
    exact outs4_step V c ⟨n + 1, h⟩ hB j (by rw [hp]; exact ih.1) (by rw [hp]; exact ih.2)

end Region4

section Final4
open Idealize.ShloMosaic.Pipeline (Dat)

variable (V : (c : Dev nD) → (b : Ref sig .tc) → Buf (Elt Ideal) ((c : Thread nD τ).loc b))

/-- The last point writes output 1's buffer back to the [1, 128] array, whose one block is the whole array: whatever the
    buffer then holds is what the array ends holding. -/
theorem final4_1_of (c : Dev nD) (G : Buf (Elt Ideal) ((cfg4.win 1).arr.view.loc (c.tc : Thread nD τ)))
    (hG : (outsAt4 V c t4_9.val t4_9.isLt).1 = G) : (dat4 V c).arrAt 1 cfg4.N = G := by
  have hN : cfg4.N = 10 := N_4
  refine (dat4 V c).arrAt_eq_of_cover 1 G (fun t hf => ?_) (fun i => ?_)
  · have h9 : t.val = 9 := by have := (flush4_1 t).mp hf; have := t.isLt; omega
    obtain rfl : t = t4_9 := Fin.ext h9
    show (cfg4.win 1).cut (grid4.coords t4_9) ((dat4 V c).after 1 t4_9) = _
    rw [after4_1, hG]
    have hz' : (fun a => win4_1.index t4_9 a * main_v48_0.ty.shape.size a) = fun _ => 0 :=
      funext fun a => by fin_cases a <;> decide
    exact (Memref.read_access_unit_zero (Elt Ideal) main_v48_0 hz' (fun a => by rw [congrFun hz' a]; simp) G).symm
  · refine ⟨t4_9, (flush4_1 t4_9).mpr rfl, ?_⟩
    show i ∈ ((View.whole main_v48_0).slice (win4_1.rect t4_9)).set
    rw [View.set_slice_whole, Rect.mem_set_unit]
    intro a
    have h0 : (i 0 : Nat) < 1 := (i 0).isLt
    have h1 : (i 1 : Nat) < 128 := (i 1).isLt
    match a with
    | ⟨0, _⟩ =>
      show win4_1.index t4_9 0 * win4_1.size 0 ≤ (i 0 : Nat)
        ∧ (i 0 : Nat) < win4_1.index t4_9 0 * win4_1.size 0 + win4_1.xsize (grid4.coords t4_9) 0
      rw [show win4_1.index t4_9 0 * win4_1.size 0 = 0 from by decide +kernel,
        show win4_1.xsize (grid4.coords t4_9) 0 = 1 from by decide +kernel]
      omega
    | ⟨1, _⟩ =>
      show win4_1.index t4_9 1 * win4_1.size 1 ≤ (i 1 : Nat)
        ∧ (i 1 : Nat) < win4_1.index t4_9 1 * win4_1.size 1 + win4_1.xsize (grid4.coords t4_9) 1
      rw [show win4_1.index t4_9 1 * win4_1.size 1 = 0 from by decide +kernel,
        show win4_1.xsize (grid4.coords t4_9) 1 = 128 from by decide +kernel]
      omega

/-- The last point writes output 2's buffer back to the [1, 128] array, whose one block is the whole array: whatever the
    buffer then holds is what the array ends holding. -/
theorem final4_2_of (c : Dev nD) (G : Buf (Elt Ideal) ((cfg4.win 2).arr.view.loc (c.tc : Thread nD τ)))
    (hG : (outsAt4 V c t4_9.val t4_9.isLt).2 = G) : (dat4 V c).arrAt 2 cfg4.N = G := by
  have hN : cfg4.N = 10 := N_4
  refine (dat4 V c).arrAt_eq_of_cover 2 G (fun t hf => ?_) (fun i => ?_)
  · have h9 : t.val = 9 := by have := (flush4_2 t).mp hf; have := t.isLt; omega
    obtain rfl : t = t4_9 := Fin.ext h9
    show (cfg4.win 2).cut (grid4.coords t4_9) ((dat4 V c).after 2 t4_9) = _
    rw [after4_2, hG]
    have hz' : (fun a => win4_2.index t4_9 a * main_v48_1.ty.shape.size a) = fun _ => 0 :=
      funext fun a => by fin_cases a <;> decide
    exact (Memref.read_access_unit_zero (Elt Ideal) main_v48_1 hz' (fun a => by rw [congrFun hz' a]; simp) G).symm
  · refine ⟨t4_9, (flush4_2 t4_9).mpr rfl, ?_⟩
    show i ∈ ((View.whole main_v48_1).slice (win4_2.rect t4_9)).set
    rw [View.set_slice_whole, Rect.mem_set_unit]
    intro a
    have h0 : (i 0 : Nat) < 1 := (i 0).isLt
    have h1 : (i 1 : Nat) < 128 := (i 1).isLt
    match a with
    | ⟨0, _⟩ =>
      show win4_2.index t4_9 0 * win4_2.size 0 ≤ (i 0 : Nat)
        ∧ (i 0 : Nat) < win4_2.index t4_9 0 * win4_2.size 0 + win4_2.xsize (grid4.coords t4_9) 0
      rw [show win4_2.index t4_9 0 * win4_2.size 0 = 0 from by decide +kernel,
        show win4_2.xsize (grid4.coords t4_9) 0 = 1 from by decide +kernel]
      omega
    | ⟨1, _⟩ =>
      show win4_2.index t4_9 1 * win4_2.size 1 ≤ (i 1 : Nat)
        ∧ (i 1 : Nat) < win4_2.index t4_9 1 * win4_2.size 1 + win4_2.xsize (grid4.coords t4_9) 1
      rw [show win4_2.index t4_9 1 * win4_2.size 1 = 0 from by decide +kernel,
        show win4_2.xsize (grid4.coords t4_9) 1 = 128 from by decide +kernel]
      omega

/-- The last point ends at row 100000: the partial sums there are the whole columns' sums. -/
theorem last4_rows : 10000 * (t4_9.val + 1) = 100000 := rfl

/-- After the last point the first output buffer holds every column's sum, -/
theorem last4_sum (c : Dev nD) :
    (outsAt4 V c t4_9.val t4_9.isLt).1 = fun j => colSum (V c main_v47) (col1 j) :=
  funext fun j => by
    rw [(outs4_eq V c t4_9.val t4_9.isLt j).1, last4_rows, colSum_eq_range]

/-- and the second the sum of every column's squares. -/
theorem last4_sq (c : Dev nD) :
    (outsAt4 V c t4_9.val t4_9.isLt).2 = fun j => colSum (sq (V c main_v47)) (col1 j) :=
  funext fun j => by
    rw [(outs4_eq V c t4_9.val t4_9.isLt j).2, last4_rows, colSum_eq_range]

theorem stats4_final_sum (c : Dev nD) :
    (dat4 V c).arrAt 1 cfg4.N = fun j => colSum (V c main_v47) (col1 j) :=
  final4_1_of V c _ (last4_sum V c)

theorem stats4_final_sq (c : Dev nD) :
    (dat4 V c).arrAt 2 cfg4.N = fun j => colSum (sq (V c main_v47)) (col1 j) :=
  final4_2_of V c _ (last4_sq V c)

end Final4

end Cert.KernelIdeal.Regions

end
-- ==== Proof.RegBn.lean ====
/-
  The two normalise-scale-shift-rectify regions of the residual block, read as whole-array functions.

  Region 2 walks the [100000, 128] array of the first convolution's output in ten blocks of 10000 rows. At each block it
  also holds four [1, 128] rows — the scale γ, the shift β, the column means and the column variances — and writes back,
  at row r and column d of the block,
      max (((x − mean_d) · rsqrt (var_d + ε)) · γ_d + β_d, 0).
  Every operation is pointwise; each [1, 128] row is broadcast down the block's 10000 rows; the casts between equal
  shapes are identities. The ten blocks tile the array, so the written array is that expression at every (r, d).

  Region 5 is the same with one more staged input, the skip connection's rows, added before the maximum.
-/
import proofs.«135215_j8418135900537_2_alg».proof.Proof.Gen.KernelIdeal.Frame
import proofs.«135215_j8418135900537_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Regions

open Cert.KernelIdeal Cert.KernelIdeal.Gen Cert.ResBlock
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Shared by both regions -/

/-- The zero offsets of a whole-buffer access. -/
theorem bn_offs_zero : (![0, 0] : Fin 2 → Nat) = fun _ => 0 := funext fun a => by fin_cases a <;> rfl

/-- The entry (0, d) of a [1, C] row, from an index (r, d) of a [10000, C] block. -/
abbrev bnRow (j : S10000x128.Idx) : S1x128.Idx := fun a => match a with
  | ⟨0, _⟩ => ⟨0, Nat.one_pos⟩
  | ⟨1, _⟩ => ⟨(j 1).val, (j 1).isLt⟩

/-- A reciprocal square root at an index is the reciprocal square root of the element. -/
theorem bn_rsqrt_apply {s : Shape} {φ : FTy} (a : FVec Ideal s φ) (i : s.Idx) : rsqrt a i = Ideal.rsqrt (a i) := rfl

/-! ## Region 2: the body's payload at an entry -/

/-- The body's payload at the entry (p, q) of its block: the block's entry normalised by the mean and the variance of
    column q, scaled, shifted, and rectified. -/
theorem pay2_apply (x : Vec Ideal S10000x128 .f32) (vr mu ga be : Vec Ideal S1x128 .f32) (p : Fin 10000) (q : Fin 128) :
    k2_pay1 x vr mu ga be (ix2 p q)
      = max (affine (x (ix2 p q)) (mu (ix2 (0 : Fin 1) q)) (vr (ix2 (0 : Fin 1) q)) (ga (ix2 (0 : Fin 1) q))
          (be (ix2 (0 : Fin 1) q))) 0 := by
  unfold k2_pay1
  simp only [shapeCast_self, maximumf_apply, addf_apply, mulf_apply, subf_apply, bn_rsqrt_apply, broadcast_apply,
    broadcastTo_1b_ab_apply, Scalar.ofBits, Ideal.ofBits_def, Ideal.ofBits_zero_f32]
  rfl

/-- The payload as one function of the block's index. -/
theorem pay2_eq (x : Vec Ideal S10000x128 .f32) (vr mu ga be : Vec Ideal S1x128 .f32) :
    k2_pay1 x vr mu ga be
      = fun j : S10000x128.Idx => max (affine (x j) (mu (bnRow j)) (vr (bnRow j)) (ga (bnRow j)) (be (bnRow j))) 0 := by
  funext j
  obtain ⟨p, q, rfl⟩ : ∃ (p : Fin 10000) (q : Fin 128), j = ix2 p q := ⟨j 0, j 1, eq_ix2 j⟩
  rw [pay2_apply]
  have hb : bnRow (ix2 p q) = ix2 (0 : Fin 1) q := funext fun a => by
    match a with
    | ⟨0, _⟩ => rfl
    | ⟨1, _⟩ => rfl
  rw [hb]

/-! ## Region 2: from the blocks to the array -/

/-- What the output array holds after the region: each entry of the first convolution's output normalised by its
    column's mean and variance, scaled, shifted and rectified. -/
abbrev bnAct2 (c : Dev nD) : S100000x128.Idx → EReal := fun i =>
  max (affine (V c main_v17 i) (V c main_v20 (row0 i)) (V c main_v26 (row0 i)) (V c main_v27 (row0 i))
    (V c main_v28 (row0 i))) 0

/-- The printed index maps, decided over the ten grid points: the input rows' block moves with the output's block,
    the four [1, 128] rows stay at block (0, 0), and the output's block index is (t, 0) with t at most 9. -/
theorem idx_facts2 : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 :=
  (by decide +kernel : ∀ t : Fin grid2.N, _)

/-- Every block of the output is some point's. -/
theorem idx_onto2 : ∀ q0 : Fin 10, ∃ t : Fin cfg2.N, win2_5.index t = ![q0.val, 0] :=
  (by decide +kernel : ∀ q0 : Fin 10, ∃ t : Fin grid2.N, win2_5.index t = ![q0.val, 0])

/-- Input window 0's block sits over the same rows and columns of its array as the output's block. -/
theorem emb2_0 (t : Fin cfg2.N) (j : S10000x128.Idx) :
    ((cfg2.win 0).blk t).view.emb j = ((cfg2.win 5).blk t).view.emb j := by
  have hf := idx_facts2 t
  funext a; apply Fin.ext
  match a with
  | ⟨0, _⟩ => show win2_0.index t (0 : Fin 2) * 10000 + 1 * (j 0).val = win2_5.index t (0 : Fin 2) * 10000 + 1 * (j 0).val; omega
  | ⟨1, _⟩ => show win2_0.index t (1 : Fin 2) * 128 + 1 * (j 1).val = win2_5.index t (1 : Fin 2) * 128 + 1 * (j 1).val; omega

/-- Input window 1's one row, read at the block entry's column, is row 0 of its array at the output entry's column. -/
theorem emb2_1 (t : Fin cfg2.N) (j : S10000x128.Idx) :
    ((cfg2.win 1).blk t).view.emb (bnRow j) = row0 (((cfg2.win 5).blk t).view.emb j) := by
  have hf := idx_facts2 t
  have hj1 : (j 1).val < 128 := (j 1).isLt
  funext a; apply Fin.ext
  match a with
  | ⟨0, _⟩ => show win2_1.index t (0 : Fin 2) * 1 + 1 * 0 = 0; omega
  | ⟨1, _⟩ => show win2_1.index t (1 : Fin 2) * 128 + 1 * (j 1).val = win2_5.index t (1 : Fin 2) * 128 + 1 * (j 1).val; omega

/-- Input window 2's one row, read at the block entry's column, is row 0 of its array at the output entry's column. -/
theorem emb2_2 (t : Fin cfg2.N) (j : S10000x128.Idx) :
    ((cfg2.win 2).blk t).view.emb (bnRow j) = row0 (((cfg2.win 5).blk t).view.emb j) := by
  have hf := idx_facts2 t
  have hj1 : (j 1).val < 128 := (j 1).isLt
  funext a; apply Fin.ext
  match a with
  | ⟨0, _⟩ => show win2_2.index t (0 : Fin 2) * 1 + 1 * 0 = 0; omega
  | ⟨1, _⟩ => show win2_2.index t (1 : Fin 2) * 128 + 1 * (j 1).val = win2_5.index t (1 : Fin 2) * 128 + 1 * (j 1).val; omega

/-- Input window 3's one row, read at the block entry's column, is row 0 of its array at the output entry's column. -/
theorem emb2_3 (t : Fin cfg2.N) (j : S10000x128.Idx) :
    ((cfg2.win 3).blk t).view.emb (bnRow j) = row0 (((cfg2.win 5).blk t).view.emb j) := by
  have hf := idx_facts2 t
  have hj1 : (j 1).val < 128 := (j 1).isLt
  funext a; apply Fin.ext
  match a with
  | ⟨0, _⟩ => show win2_3.index t (0 : Fin 2) * 1 + 1 * 0 = 0; omega
  | ⟨1, _⟩ => show win2_3.index t (1 : Fin 2) * 128 + 1 * (j 1).val = win2_5.index t (1 : Fin 2) * 128 + 1 * (j 1).val; omega

/-- Input window 4's one row, read at the block entry's column, is row 0 of its array at the output entry's column. -/
theorem emb2_4 (t : Fin cfg2.N) (j : S10000x128.Idx) :
    ((cfg2.win 4).blk t).view.emb (bnRow j) = row0 (((cfg2.win 5).blk t).view.emb j) := by
  have hf := idx_facts2 t
  have hj1 : (j 1).val < 128 := (j 1).isLt
  funext a; apply Fin.ext
  match a with
  | ⟨0, _⟩ => show win2_4.index t (0 : Fin 2) * 1 + 1 * 0 = 0; omega
  | ⟨1, _⟩ => show win2_4.index t (1 : Fin 2) * 128 + 1 * (j 1).val = win2_5.index t (1 : Fin 2) * 128 + 1 * (j 1).val; omega

/-- What point t writes back is block t of the normalised, rectified array. -/
theorem flushed2_eq (c : Dev nD) (t : Fin cfg2.N) :
    (dat2 V c).flushed 5 t = ((cfg2.win 5).blk t).view.read (Elt Ideal) (bnAct2 V c) := by
  show (cfg2.win 5).cut (grid2.coords t) ((dat2 V c).after 5 t) = _
  rw [after2_5 V c t]
  unfold out2_5
  rw [View.canon_unit_zero bn_offs_zero]
  simp only [View.ld_unit_zero (S := S10000x128) bn_offs_zero, View.ld_unit_zero (S := S1x128) bn_offs_zero]
  rw [pay2_eq]
  funext j
  show max (affine (V c main_v17 (((cfg2.win 0).blk t).view.emb j))
        (V c main_v20 (((cfg2.win 3).blk t).view.emb (bnRow j)))
        (V c main_v26 (((cfg2.win 4).blk t).view.emb (bnRow j)))
        (V c main_v27 (((cfg2.win 1).blk t).view.emb (bnRow j)))
        (V c main_v28 (((cfg2.win 2).blk t).view.emb (bnRow j)))) 0
      = max (affine (V c main_v17 (((cfg2.win 5).blk t).view.emb j))
        (V c main_v20 (row0 (((cfg2.win 5).blk t).view.emb j)))
        (V c main_v26 (row0 (((cfg2.win 5).blk t).view.emb j)))
        (V c main_v27 (row0 (((cfg2.win 5).blk t).view.emb j)))
        (V c main_v28 (row0 (((cfg2.win 5).blk t).view.emb j)))) 0
  rw [emb2_0 t j, emb2_1 t j, emb2_2 t j, emb2_3 t j, emb2_4 t j]

/-- An index of the array is in point t's block iff each coordinate is in the block's range on its axis. -/
theorem mem_blk2 (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v29).slice (win2_5.rect t)).set ↔ _
  rw [View.set_slice_whole, Rect.mem_set_unit]
  exact Iff.rfl

/-- The ten blocks tile the array: row r lies in the block of the point whose block index is r / 10000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- The array region 2 writes: the first convolution's output normalised, scaled, shifted and rectified. -/
theorem bn2_final (c : Dev nD) :
    (dat2 V c).arrAt 5 cfg2.N = fun i => max (affine (V c main_v17 i) (V c main_v20 (row0 i)) (V c main_v26 (row0 i))
      (V c main_v27 (row0 i)) (V c main_v28 (row0 i))) 0 :=
  (dat2 V c).arrAt_eq_of_cover 5 (bnAct2 V c) (fun t _ => flushed2_eq V c t) cover2

/-! ## Region 5: the body's payload at an entry -/

/-- The body's payload at the entry (p, q) of its block: the block's entry normalised by the mean and the variance of
    column q, scaled and shifted, the skip connection's entry added, and the sum rectified. -/
theorem pay5_apply (x : Vec Ideal S10000x128 .f32) (vr mu ga be : Vec Ideal S1x128 .f32) (sk : Vec Ideal S10000x128 .f32)
    (p : Fin 10000) (q : Fin 128) :
    k5_pay1 x vr mu ga be sk (ix2 p q)
      = max (affine (x (ix2 p q)) (mu (ix2 (0 : Fin 1) q)) (vr (ix2 (0 : Fin 1) q)) (ga (ix2 (0 : Fin 1) q))
          (be (ix2 (0 : Fin 1) q)) + sk (ix2 p q)) 0 := by
  unfold k5_pay1
  simp only [shapeCast_self, maximumf_apply, addf_apply, mulf_apply, subf_apply, bn_rsqrt_apply, broadcast_apply,
    broadcastTo_1b_ab_apply, Scalar.ofBits, Ideal.ofBits_def, Ideal.ofBits_zero_f32]
  rfl

/-- The payload as one function of the block's index. -/
theorem pay5_eq (x : Vec Ideal S10000x128 .f32) (vr mu ga be : Vec Ideal S1x128 .f32) (sk : Vec Ideal S10000x128 .f32) :
    k5_pay1 x vr mu ga be sk
      = fun j : S10000x128.Idx =>
          max (affine (x j) (mu (bnRow j)) (vr (bnRow j)) (ga (bnRow j)) (be (bnRow j)) + sk j) 0 := by
  funext j
  obtain ⟨p, q, rfl⟩ : ∃ (p : Fin 10000) (q : Fin 128), j = ix2 p q := ⟨j 0, j 1, eq_ix2 j⟩
  rw [pay5_apply]
  have hb : bnRow (ix2 p q) = ix2 (0 : Fin 1) q := funext fun a => by
    match a with
    | ⟨0, _⟩ => rfl
    | ⟨1, _⟩ => rfl
  rw [hb]

/-! ## Region 5: from the blocks to the array -/

/-- What the output array holds after the region: each entry of the second convolution's output normalised by its
    column's mean and variance, scaled and shifted, the block's argument added, and the sum rectified. -/
abbrev bnAct5 (c : Dev nD) : S100000x128.Idx → EReal := fun i =>
  max (affine (V c main_v47 i) (V c main_v50 (row0 i)) (V c main_v56 (row0 i)) (V c main_v57 (row0 i))
    (V c main_v58 (row0 i)) + V c main_arg0 i) 0

/-- The printed index maps, decided over the ten grid points: the two row-block inputs move with the output's block,
    the four [1, 128] rows stay at block (0, 0), and the output's block index is (t, 0) with t at most 9. -/
theorem idx_facts5 : ∀ t : Fin cfg5.N, win5_0.index t (0 : Fin 2) = win5_6.index t (0 : Fin 2)
    ∧ win5_0.index t (1 : Fin 2) = 0 ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = win5_6.index t (0 : Fin 2) ∧ win5_5.index t (1 : Fin 2) = 0
    ∧ win5_6.index t (0 : Fin 2) ≤ 9 :=
  (by decide +kernel : ∀ t : Fin grid5.N, _)

/-- Every block of the output is some point's. -/
theorem idx_onto5 : ∀ q0 : Fin 10, ∃ t : Fin cfg5.N, win5_6.index t = ![q0.val, 0] :=
  (by decide +kernel : ∀ q0 : Fin 10, ∃ t : Fin grid5.N, win5_6.index t = ![q0.val, 0])

/-- Input window 0's block sits over the same rows and columns of its array as the output's block. -/
theorem emb5_0 (t : Fin cfg5.N) (j : S10000x128.Idx) :
    ((cfg5.win 0).blk t).view.emb j = ((cfg5.win 6).blk t).view.emb j := by
  have hf := idx_facts5 t
  funext a; apply Fin.ext
  match a with
  | ⟨0, _⟩ => show win5_0.index t (0 : Fin 2) * 10000 + 1 * (j 0).val = win5_6.index t (0 : Fin 2) * 10000 + 1 * (j 0).val; omega
  | ⟨1, _⟩ => show win5_0.index t (1 : Fin 2) * 128 + 1 * (j 1).val = win5_6.index t (1 : Fin 2) * 128 + 1 * (j 1).val; omega

/-- Input window 5's block sits over the same rows and columns of its array as the output's block. -/
theorem emb5_5 (t : Fin cfg5.N) (j : S10000x128.Idx) :
    ((cfg5.win 5).blk t).view.emb j = ((cfg5.win 6).blk t).view.emb j := by
  have hf := idx_facts5 t
  funext a; apply Fin.ext
  match a with
  | ⟨0, _⟩ => show win5_5.index t (0 : Fin 2) * 10000 + 1 * (j 0).val = win5_6.index t (0 : Fin 2) * 10000 + 1 * (j 0).val; omega
  | ⟨1, _⟩ => show win5_5.index t (1 : Fin 2) * 128 + 1 * (j 1).val = win5_6.index t (1 : Fin 2) * 128 + 1 * (j 1).val; omega

/-- Input window 1's one row, read at the block entry's column, is row 0 of its array at the output entry's column. -/
theorem emb5_1 (t : Fin cfg5.N) (j : S10000x128.Idx) :
    ((cfg5.win 1).blk t).view.emb (bnRow j) = row0 (((cfg5.win 6).blk t).view.emb j) := by
  have hf := idx_facts5 t
  have hj1 : (j 1).val < 128 := (j 1).isLt
  funext a; apply Fin.ext
  match a with
  | ⟨0, _⟩ => show win5_1.index t (0 : Fin 2) * 1 + 1 * 0 = 0; omega
  | ⟨1, _⟩ => show win5_1.index t (1 : Fin 2) * 128 + 1 * (j 1).val = win5_6.index t (1 : Fin 2) * 128 + 1 * (j 1).val; omega

/-- Input window 2's one row, read at the block entry's column, is row 0 of its array at the output entry's column. -/
theorem emb5_2 (t : Fin cfg5.N) (j : S10000x128.Idx) :
    ((cfg5.win 2).blk t).view.emb (bnRow j) = row0 (((cfg5.win 6).blk t).view.emb j) := by
  have hf := idx_facts5 t
  have hj1 : (j 1).val < 128 := (j 1).isLt
  funext a; apply Fin.ext
  match a with
  | ⟨0, _⟩ => show win5_2.index t (0 : Fin 2) * 1 + 1 * 0 = 0; omega
  | ⟨1, _⟩ => show win5_2.index t (1 : Fin 2) * 128 + 1 * (j 1).val = win5_6.index t (1 : Fin 2) * 128 + 1 * (j 1).val; omega

/-- Input window 3's one row, read at the block entry's column, is row 0 of its array at the output entry's column. -/
theorem emb5_3 (t : Fin cfg5.N) (j : S10000x128.Idx) :
    ((cfg5.win 3).blk t).view.emb (bnRow j) = row0 (((cfg5.win 6).blk t).view.emb j) := by
  have hf := idx_facts5 t
  have hj1 : (j 1).val < 128 := (j 1).isLt
  funext a; apply Fin.ext
  match a with
  | ⟨0, _⟩ => show win5_3.index t (0 : Fin 2) * 1 + 1 * 0 = 0; omega
  | ⟨1, _⟩ => show win5_3.index t (1 : Fin 2) * 128 + 1 * (j 1).val = win5_6.index t (1 : Fin 2) * 128 + 1 * (j 1).val; omega

/-- Input window 4's one row, read at the block entry's column, is row 0 of its array at the output entry's column. -/
theorem emb5_4 (t : Fin cfg5.N) (j : S10000x128.Idx) :
    ((cfg5.win 4).blk t).view.emb (bnRow j) = row0 (((cfg5.win 6).blk t).view.emb j) := by
  have hf := idx_facts5 t
  have hj1 : (j 1).val < 128 := (j 1).isLt
  funext a; apply Fin.ext
  match a with
  | ⟨0, _⟩ => show win5_4.index t (0 : Fin 2) * 1 + 1 * 0 = 0; omega
  | ⟨1, _⟩ => show win5_4.index t (1 : Fin 2) * 128 + 1 * (j 1).val = win5_6.index t (1 : Fin 2) * 128 + 1 * (j 1).val; omega

/-- What point t writes back is block t of the normalised array with the skip connection added, rectified. -/
theorem flushed5_eq (c : Dev nD) (t : Fin cfg5.N) :
    (dat5 V c).flushed 6 t = ((cfg5.win 6).blk t).view.read (Elt Ideal) (bnAct5 V c) := by
  show (cfg5.win 6).cut (grid5.coords t) ((dat5 V c).after 6 t) = _
  rw [after5_6 V c t]
  unfold out5_6
  rw [View.canon_unit_zero bn_offs_zero]
  simp only [View.ld_unit_zero (S := S10000x128) bn_offs_zero, View.ld_unit_zero (S := S1x128) bn_offs_zero]
  rw [pay5_eq]
  funext j
  show max (affine (V c main_v47 (((cfg5.win 0).blk t).view.emb j))
        (V c main_v50 (((cfg5.win 3).blk t).view.emb (bnRow j)))
        (V c main_v56 (((cfg5.win 4).blk t).view.emb (bnRow j)))
        (V c main_v57 (((cfg5.win 1).blk t).view.emb (bnRow j)))
        (V c main_v58 (((cfg5.win 2).blk t).view.emb (bnRow j)))
        + V c main_arg0 (((cfg5.win 5).blk t).view.emb j)) 0
      = max (affine (V c main_v47 (((cfg5.win 6).blk t).view.emb j))
        (V c main_v50 (row0 (((cfg5.win 6).blk t).view.emb j)))
        (V c main_v56 (row0 (((cfg5.win 6).blk t).view.emb j)))
        (V c main_v57 (row0 (((cfg5.win 6).blk t).view.emb j)))
        (V c main_v58 (row0 (((cfg5.win 6).blk t).view.emb j)))
        + V c main_arg0 (((cfg5.win 6).blk t).view.emb j)) 0
  rw [emb5_0 t j, emb5_5 t j, emb5_1 t j, emb5_2 t j, emb5_3 t j, emb5_4 t j]

/-- An index of the array is in point t's block iff each coordinate is in the block's range on its axis. -/
theorem mem_blk5 (t : Fin cfg5.N) (i : S100000x128.Idx) :
    i ∈ ((cfg5.win 6).blk t).view.set ↔ ∀ a : Fin 2, win5_6.index t a * S10000x128.size a ≤ (i a).val
      ∧ (i a).val < win5_6.index t a * S10000x128.size a + S10000x128.size a := by
  show i ∈ ((View.whole main_v59).slice (win5_6.rect t)).set ↔ _
  rw [View.set_slice_whole, Rect.mem_set_unit]
  exact Iff.rfl

/-- The ten blocks tile the array: row r lies in the block of the point whose block index is r / 10000. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  obtain ⟨t, ht⟩ := idx_onto5 ⟨(i 0).val / 10000, by omega⟩
  have q0 : win5_6.index t (0 : Fin 2) = (i 0).val / 10000 := congrFun ht 0
  have q1 : win5_6.index t (1 : Fin 2) = 0 := congrFun ht 1
  refine ⟨t, flush5_6 t, ?_⟩
  rw [mem_blk5]
  intro a
  match a with
  | ⟨0, _⟩ => show win5_6.index t (0 : Fin 2) * 10000 ≤ (i 0).val ∧ (i 0).val < win5_6.index t (0 : Fin 2) * 10000 + 10000; omega
  | ⟨1, _⟩ => show win5_6.index t (1 : Fin 2) * 128 ≤ (i 1).val ∧ (i 1).val < win5_6.index t (1 : Fin 2) * 128 + 128; omega

/-- The array region 5 writes: the second convolution's output normalised, scaled and shifted, the block's argument
    added, and the sum rectified. -/
theorem bn5_final (c : Dev nD) :
    (dat5 V c).arrAt 6 cfg5.N = fun i => max (affine (V c main_v47 i) (V c main_v50 (row0 i)) (V c main_v56 (row0 i))
      (V c main_v57 (row0 i)) (V c main_v58 (row0 i)) + V c main_arg0 i) 0 :=
  (dat5 V c).arrAt_eq_of_cover 6 (bnAct5 V c) (fun t _ => flushed5_eq V c t) cover5

end Cert.KernelIdeal.Regions

end
-- ==== Proof.KValue.lean ====
/-
  The idealized kernel's result buffer, read back through the program's twelve segments.

  The buffer contents at each segment boundary are a fold from the launch memory: a stretch of host operations applies
  them, a region replaces its windows' arrays by what its write-backs leave. Walking that fold from the launch: the
  first stretch gathers the rows of x; region 0 multiplies them by the first weights; the next stretch adds the products
  into the rows the output indices name, which is the first convolution; region 1 leaves its column sums and the column
  sums of its squares; the stretch after it divides them by N and forms the variance from the two moments; region 2
  normalises and rectifies, which is the first half of the block; the same six segments again with the second weights,
  the last region adding the skip connection before it rectifies. So the result buffer ends holding the block with the
  variances taken from the two moments. A buffer the program only reads (an argument, or an array a later segment
  reads) passes each segment unchanged: a host stretch does not write it, and a region leaves every buffer that is not
  one of its output arrays as it found it.
-/
import proofs.«135215_j8418135900537_2_alg».proof.Proof.Gen.KernelIdeal.Frame
import proofs.«135215_j8418135900537_2_alg».proof.Proof.Spec
import proofs.«135215_j8418135900537_2_alg».proof.Proof.RegGemm
import proofs.«135215_j8418135900537_2_alg».proof.Proof.RegStats
import proofs.«135215_j8418135900537_2_alg».proof.Proof.RegBn
import Idealize.ShloMosaic.PureOps.Ideal.Laws
import Idealize.ShloMosaic.Lib.Pipeline.Value
import Idealize.ShloMosaic.Lib.ValueLayout

set_option maxRecDepth 16384

noncomputable section

namespace Cert.KernelIdeal.ValueWalk

open Cert.KernelIdeal Cert.KernelIdeal.Gen Cert.KernelIdeal.Regions Cert.ResBlock
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A host stretch leaves a buffer it does not write as it found it. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Region 0: the first product -/

theorem W1_arg1 : W1 m ρ c (Proc.devRef .tc main_arg1) = m ((c.tc : Thread nD τ).loc main_arg1) := by
  show StableHlo.after hostOps0 (W0 m ρ c) (Proc.devRef .tc main_arg1) = W0 m ρ c (Proc.devRef .tc main_arg1)
  host_keeps hostOps0

theorem W1_v7 : W1 m ρ c (Proc.devRef .tc main_v7)
    = gath (m ((c.tc : Thread nD τ).loc main_arg0)) (m ((c.tc : Thread nD τ).loc main_arg7)) := by
  show StableHlo.after hostOps0 (W0 m ρ c) (Proc.devRef .tc main_v7) = _
  after_results
  rfl

theorem W2_v8 : W2 m ρ c (Proc.devRef .tc main_v8)
    = mm (gath (m ((c.tc : Thread nD τ).loc main_arg0)) (m ((c.tc : Thread nD τ).loc main_arg7))) (m ((c.tc : Thread nD τ).loc main_arg1)) := by
  refine (W2_arr m ρ c 2).trans ?_
  rw [gemm0_final (V1 m ρ) c]
  show mm (W1 m ρ c (Proc.devRef .tc main_v7)) (W1 m ρ c (Proc.devRef .tc main_arg1)) = _
  rw [W1_v7, W1_arg1]

/-! ## The first scatter-add and the first column sums -/

theorem W2_arg8 : W2 m ρ c (Proc.devRef .tc main_arg8) = m ((c.tc : Thread nD τ).loc main_arg8) := by
  refine (W2_of_ne m ρ c main_arg8 (by decide)).trans ?_
  show StableHlo.after hostOps0 (W0 m ρ c) (Proc.devRef .tc main_arg8) = W0 m ρ c (Proc.devRef .tc main_arg8)
  host_keeps hostOps0

/-- The first convolution's result, as the program's first normalisation finds it. -/
abbrev o1 : FVec Ideal S100000x128 .f32 :=
  conv (m ((c.tc : Thread nD τ).loc main_arg0)) (m ((c.tc : Thread nD τ).loc main_arg1))
    (m ((c.tc : Thread nD τ).loc main_arg7)) (m ((c.tc : Thread nD τ).loc main_arg8))

theorem W3_v17 : W3 m ρ c (Proc.devRef .tc main_v17) = o1 m c := by
  show StableHlo.after hostOps1 (W2 m ρ c) (Proc.devRef .tc main_v17) = _
  after_results
  rw [W2_v8, W2_arg8]
  rfl

theorem W4_v17 : W4 m ρ c (Proc.devRef .tc main_v17) = o1 m c :=
  ((W4_arr m ρ c 0).trans (((dat1 (V3 m ρ) c).arrAt_in 0 rfl _).trans (A_eq1 (V3 m ρ) c 0))).trans (W3_v17 m ρ c)

theorem W4_v18_0 : W4 m ρ c (Proc.devRef .tc main_v18_0) = fun j => colSum (o1 m c) (col1 j) := by
  refine (W4_arr m ρ c 1).trans ?_
  rw [stats1_final_sum (V3 m ρ) c]
  show (fun j => colSum (W3 m ρ c (Proc.devRef .tc main_v17)) (col1 j)) = _
  rw [W3_v17]

theorem W4_v18_1 : W4 m ρ c (Proc.devRef .tc main_v18_1) = fun j => colSum (sq (o1 m c)) (col1 j) := by
  refine (W4_arr m ρ c 2).trans ?_
  rw [stats1_final_sq (V3 m ρ) c]
  show (fun j => colSum (sq (W3 m ρ c (Proc.devRef .tc main_v17))) (col1 j)) = _
  rw [W3_v17]

theorem W4_arg2 : W4 m ρ c (Proc.devRef .tc main_arg2) = m ((c.tc : Thread nD τ).loc main_arg2) := by
  refine (W4_of_ne m ρ c main_arg2 (by decide)).trans ?_
  refine (show StableHlo.after hostOps1 (W2 m ρ c) (Proc.devRef .tc main_arg2) = W2 m ρ c (Proc.devRef .tc main_arg2) from by host_keeps hostOps1).trans ?_
  refine (W2_of_ne m ρ c main_arg2 (by decide)).trans ?_
  show StableHlo.after hostOps0 (W0 m ρ c) (Proc.devRef .tc main_arg2) = W0 m ρ c (Proc.devRef .tc main_arg2)
  host_keeps hostOps0

theorem W4_arg3 : W4 m ρ c (Proc.devRef .tc main_arg3) = m ((c.tc : Thread nD τ).loc main_arg3) := by
  refine (W4_of_ne m ρ c main_arg3 (by decide)).trans ?_
  refine (show StableHlo.after hostOps1 (W2 m ρ c) (Proc.devRef .tc main_arg3) = W2 m ρ c (Proc.devRef .tc main_arg3) from by host_keeps hostOps1).trans ?_
  refine (W2_of_ne m ρ c main_arg3 (by decide)).trans ?_
  show StableHlo.after hostOps0 (W0 m ρ c) (Proc.devRef .tc main_arg3) = W0 m ρ c (Proc.devRef .tc main_arg3)
  host_keeps hostOps0

/-! ## The first mean and variance -/

/-- A [C] vector reshaped to a [1, C] row reads, at (0, d), the vector at d. -/
theorem reshape_row (x : FVec Ideal S128 .f32) (j : S1x128.Idx) :
    shapeCast S1x128 x shapeCasts_S128_S1x128 j = x (v1 (col1 j)) := by
  refine shapeCast_apply x shapeCasts_S128_S1x128 j (v1 (col1 j)) ?_
  rw [Shape.rowMajor_val_two, Shape.rowMajor_val_one]
  have h0 : (j 0).val < 1 := (j 0).isLt
  show (j 1).val = (j 0).val * 128 + (j 1).val
  omega

theorem W5_v17 : W5 m ρ c (Proc.devRef .tc main_v17) = o1 m c := by
  refine (show StableHlo.after hostOps2 (W4 m ρ c) (Proc.devRef .tc main_v17) = W4 m ρ c (Proc.devRef .tc main_v17) from by host_keeps hostOps2).trans ?_
  exact W4_v17 m ρ c

theorem W5_v20 : W5 m ρ c (Proc.devRef .tc main_v20) = fun j => mean (o1 m c) (col1 j) := by
  show StableHlo.after hostOps2 (W4 m ρ c) (Proc.devRef .tc main_v20) = _
  after_results
  rw [W4_v18_0]
  rfl

theorem W5_v26 : W5 m ρ c (Proc.devRef .tc main_v26) = fun j => varM (o1 m c) (col1 j) := by
  show StableHlo.after hostOps2 (W4 m ρ c) (Proc.devRef .tc main_v26) = _
  after_results
  rw [W4_v18_0, W4_v18_1]
  funext j
  show max (Ideal.div (colSum (sq (o1 m c)) (col1 j)) cnt - mean (o1 m c) (col1 j) * mean (o1 m c) (col1 j)) (Ideal.ofBits .f32 0x00000000#32) = _
  rw [Ideal.ofBits_zero_f32]
  rfl

theorem W5_v27 : W5 m ρ c (Proc.devRef .tc main_v27) = fun j => m ((c.tc : Thread nD τ).loc main_arg2) (v1 (col1 j)) := by
  show StableHlo.after hostOps2 (W4 m ρ c) (Proc.devRef .tc main_v27) = _
  after_results
  rw [W4_arg2]
  funext j
  exact reshape_row (m ((c.tc : Thread nD τ).loc main_arg2)) j

theorem W5_v28 : W5 m ρ c (Proc.devRef .tc main_v28) = fun j => m ((c.tc : Thread nD τ).loc main_arg3) (v1 (col1 j)) := by
  show StableHlo.after hostOps2 (W4 m ρ c) (Proc.devRef .tc main_v28) = _
  after_results
  rw [W4_arg3]
  funext j
  exact reshape_row (m ((c.tc : Thread nD τ).loc main_arg3)) j

/-! ## Region 2: the first normalisation -/

/-- The first half's result, as the program's second gather finds it. -/
abbrev h1 : FVec Ideal S100000x128 .f32 :=
  half1 varM (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg7)) (m ((c.tc : Thread nD τ).loc main_arg8))

theorem W6_v29 : W6 m ρ c (Proc.devRef .tc main_v29) = h1 m c := by
  refine (W6_arr m ρ c 5).trans ?_
  rw [bn2_final (V5 m ρ) c]
  show (fun i => max (affine (W5 m ρ c (Proc.devRef .tc main_v17) i) (W5 m ρ c (Proc.devRef .tc main_v20) (row0 i))
    (W5 m ρ c (Proc.devRef .tc main_v26) (row0 i)) (W5 m ρ c (Proc.devRef .tc main_v27) (row0 i))
    (W5 m ρ c (Proc.devRef .tc main_v28) (row0 i))) 0) = _
  rw [W5_v17, W5_v20, W5_v26, W5_v27, W5_v28]
  rfl

/-! ## Buffers the program only reads, at the later boundaries -/

set_option hygiene false in
/-- A region leaves a buffer that is not one of its windows' arrays as it found it. -/
local macro "region_skip" Wne:ident a:ident : tactic =>
  `(tactic| refine ($Wne m ρ c $a (by decide)).trans ?_)

set_option hygiene false in
/-- A host stretch leaves a buffer it does not write as it found it. -/
local macro "host_skip" ops:ident Wprev:ident a:ident : tactic =>
  `(tactic| refine (show StableHlo.after $ops ($Wprev m ρ c) (Proc.devRef .tc $a) = $Wprev m ρ c (Proc.devRef .tc $a) from by host_keeps $ops).trans ?_)

theorem W6_arg7 : W6 m ρ c (Proc.devRef .tc main_arg7) = m ((c.tc : Thread nD τ).loc main_arg7) := by
  region_skip W6_of_ne main_arg7; host_skip hostOps2 W4 main_arg7
  region_skip W4_of_ne main_arg7; host_skip hostOps1 W2 main_arg7
  region_skip W2_of_ne main_arg7; host_skip hostOps0 W0 main_arg7
  rfl

theorem W7_arg4 : W7 m ρ c (Proc.devRef .tc main_arg4) = m ((c.tc : Thread nD τ).loc main_arg4) := by
  host_skip hostOps3 W6 main_arg4
  region_skip W6_of_ne main_arg4; host_skip hostOps2 W4 main_arg4
  region_skip W4_of_ne main_arg4; host_skip hostOps1 W2 main_arg4
  region_skip W2_of_ne main_arg4; host_skip hostOps0 W0 main_arg4
  rfl

theorem W8_arg8 : W8 m ρ c (Proc.devRef .tc main_arg8) = m ((c.tc : Thread nD τ).loc main_arg8) := by
  region_skip W8_of_ne main_arg8; host_skip hostOps3 W6 main_arg8
  region_skip W6_of_ne main_arg8; host_skip hostOps2 W4 main_arg8
  region_skip W4_of_ne main_arg8; host_skip hostOps1 W2 main_arg8
  exact W2_arg8 m ρ c

theorem W10_arg5 : W10 m ρ c (Proc.devRef .tc main_arg5) = m ((c.tc : Thread nD τ).loc main_arg5) := by
  region_skip W10_of_ne main_arg5; host_skip hostOps4 W8 main_arg5
  region_skip W8_of_ne main_arg5; host_skip hostOps3 W6 main_arg5
  region_skip W6_of_ne main_arg5; host_skip hostOps2 W4 main_arg5
  region_skip W4_of_ne main_arg5; host_skip hostOps1 W2 main_arg5
  region_skip W2_of_ne main_arg5; host_skip hostOps0 W0 main_arg5
  rfl

theorem W10_arg6 : W10 m ρ c (Proc.devRef .tc main_arg6) = m ((c.tc : Thread nD τ).loc main_arg6) := by
  region_skip W10_of_ne main_arg6; host_skip hostOps4 W8 main_arg6
  region_skip W8_of_ne main_arg6; host_skip hostOps3 W6 main_arg6
  region_skip W6_of_ne main_arg6; host_skip hostOps2 W4 main_arg6
  region_skip W4_of_ne main_arg6; host_skip hostOps1 W2 main_arg6
  region_skip W2_of_ne main_arg6; host_skip hostOps0 W0 main_arg6
  rfl

theorem W11_arg0 : W11 m ρ c (Proc.devRef .tc main_arg0) = m ((c.tc : Thread nD τ).loc main_arg0) := by
  host_skip hostOps5 W10 main_arg0
  region_skip W10_of_ne main_arg0; host_skip hostOps4 W8 main_arg0
  region_skip W8_of_ne main_arg0; host_skip hostOps3 W6 main_arg0
  region_skip W6_of_ne main_arg0; host_skip hostOps2 W4 main_arg0
  region_skip W4_of_ne main_arg0; host_skip hostOps1 W2 main_arg0
  region_skip W2_of_ne main_arg0; host_skip hostOps0 W0 main_arg0
  rfl

/-! ## Region 3 and the second scatter-add -/

theorem W7_v37 : W7 m ρ c (Proc.devRef .tc main_v37) = gath (h1 m c) (m ((c.tc : Thread nD τ).loc main_arg7)) := by
  show StableHlo.after hostOps3 (W6 m ρ c) (Proc.devRef .tc main_v37) = _
  after_results
  rw [W6_v29, W6_arg7]
  rfl

theorem W8_v38 : W8 m ρ c (Proc.devRef .tc main_v38) = mm (gath (h1 m c) (m ((c.tc : Thread nD τ).loc main_arg7))) (m ((c.tc : Thread nD τ).loc main_arg4)) := by
  refine (W8_arr m ρ c 2).trans ?_
  rw [gemm3_final (V7 m ρ) c]
  show mm (W7 m ρ c (Proc.devRef .tc main_v37)) (W7 m ρ c (Proc.devRef .tc main_arg4)) = _
  rw [W7_v37, W7_arg4]

/-- The second convolution's result, as the program's second normalisation finds it. -/
abbrev o2 : FVec Ideal S100000x128 .f32 :=
  conv (h1 m c) (m ((c.tc : Thread nD τ).loc main_arg4)) (m ((c.tc : Thread nD τ).loc main_arg7)) (m ((c.tc : Thread nD τ).loc main_arg8))

set_option maxHeartbeats 2000000 in
theorem W9_v47 : W9 m ρ c (Proc.devRef .tc main_v47) = o2 m c := by
  show StableHlo.after hostOps4 (W8 m ρ c) (Proc.devRef .tc main_v47) = _
  after_results
  rw [W8_v38, W8_arg8]
  rfl

/-! ## Region 4 and the second mean and variance -/

theorem W10_v47 : W10 m ρ c (Proc.devRef .tc main_v47) = o2 m c :=
  ((W10_arr m ρ c 0).trans (((dat4 (V9 m ρ) c).arrAt_in 0 rfl _).trans (A_eq4 (V9 m ρ) c 0))).trans (W9_v47 m ρ c)

theorem W10_v48_0 : W10 m ρ c (Proc.devRef .tc main_v48_0) = fun j => colSum (o2 m c) (col1 j) := by
  refine (W10_arr m ρ c 1).trans ?_
  rw [stats4_final_sum (V9 m ρ) c]
  show (fun j => colSum (W9 m ρ c (Proc.devRef .tc main_v47)) (col1 j)) = _
  rw [W9_v47]

theorem W10_v48_1 : W10 m ρ c (Proc.devRef .tc main_v48_1) = fun j => colSum (sq (o2 m c)) (col1 j) := by
  refine (W10_arr m ρ c 2).trans ?_
  rw [stats4_final_sq (V9 m ρ) c]
  show (fun j => colSum (sq (W9 m ρ c (Proc.devRef .tc main_v47))) (col1 j)) = _
  rw [W9_v47]

theorem W11_v47 : W11 m ρ c (Proc.devRef .tc main_v47) = o2 m c := by
  host_skip hostOps5 W10 main_v47
  exact W10_v47 m ρ c

theorem W11_v50 : W11 m ρ c (Proc.devRef .tc main_v50) = fun j => mean (o2 m c) (col1 j) := by
  show StableHlo.after hostOps5 (W10 m ρ c) (Proc.devRef .tc main_v50) = _
  after_results
  rw [W10_v48_0]
  rfl

theorem W11_v56 : W11 m ρ c (Proc.devRef .tc main_v56) = fun j => varM (o2 m c) (col1 j) := by
  show StableHlo.after hostOps5 (W10 m ρ c) (Proc.devRef .tc main_v56) = _
  after_results
  rw [W10_v48_0, W10_v48_1]
  funext j
  show max (Ideal.div (colSum (sq (o2 m c)) (col1 j)) cnt - mean (o2 m c) (col1 j) * mean (o2 m c) (col1 j)) (Ideal.ofBits .f32 0x00000000#32) = _
  rw [Ideal.ofBits_zero_f32]
  rfl

theorem W11_v57 : W11 m ρ c (Proc.devRef .tc main_v57) = fun j => m ((c.tc : Thread nD τ).loc main_arg5) (v1 (col1 j)) := by
  show StableHlo.after hostOps5 (W10 m ρ c) (Proc.devRef .tc main_v57) = _
  after_results
  rw [W10_arg5]
  funext j
  exact reshape_row (m ((c.tc : Thread nD τ).loc main_arg5)) j

theorem W11_v58 : W11 m ρ c (Proc.devRef .tc main_v58) = fun j => m ((c.tc : Thread nD τ).loc main_arg6) (v1 (col1 j)) := by
  show StableHlo.after hostOps5 (W10 m ρ c) (Proc.devRef .tc main_v58) = _
  after_results
  rw [W10_arg6]
  funext j
  exact reshape_row (m ((c.tc : Thread nD τ).loc main_arg6)) j

/-! ## Region 5: the second normalisation, the skip connection, the result -/

/-- The result buffer after the last region holds the block, its variances taken from the two moments. -/
theorem W12_v59 : W12 m ρ c (Proc.devRef .tc main_v59)
    = block varM (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) := by
  refine (W12_arr m ρ c 6).trans ?_
  rw [bn5_final (V11 m ρ) c]
  show (fun i => max (affine (W11 m ρ c (Proc.devRef .tc main_v47) i) (W11 m ρ c (Proc.devRef .tc main_v50) (row0 i))
    (W11 m ρ c (Proc.devRef .tc main_v56) (row0 i)) (W11 m ρ c (Proc.devRef .tc main_v57) (row0 i))
    (W11 m ρ c (Proc.devRef .tc main_v58) (row0 i)) + W11 m ρ c (Proc.devRef .tc main_arg0) i) 0) = _
  rw [W11_v47, W11_v50, W11_v56, W11_v57, W11_v58, W11_arg0]
  rfl

end Cert.KernelIdeal.ValueWalk

end
-- ==== Proof.RefValue.lean ====
/-
  The reference program's result is the residual block with the variance of a column taken as the mean of the
  squared deviations from the column's mean.

  The reference computes, one operation at a time: the sparse convolution of x with the first weights (gather the
  rows at the pair list's input indices, multiply each gathered row by its offset's matrix, add the products into
  the rows the output indices name, starting from zero); the batch normalisation of the result y, per column d with
  μ = (∑ n, y (n, d)) / N and v = (∑ n, (y (n, d) − μ)²) / N, entry ↦ ((y − μ) · (v + ε)^(−1/2)) · γ + β; the
  rectification max (·, 0); the same convolution and normalisation again with the second weights; the sum with x;
  the rectification. Each of these is, operation for operation, the term the shared vocabulary names: the index
  wrap, the gather and the scatter-add are carried as whole terms and never read at an index, the contraction is
  read as its sum over the contracted coordinate, and the normalisation is read entry by entry over an arbitrary
  array standing for the convolution's result.
-/
import proofs.«135215_j8418135900537_2_alg».proof.Proof.Gen.ReferenceIdeal.Read
import proofs.«135215_j8418135900537_2_alg».proof.Proof.Spec

noncomputable section

namespace Cert.ReferenceIdeal.RefValue

open Idealize.ShloMosaic Cert.KernelIdeal Cert.ResBlock
open scoped BigOperators

/-! ## The wrapped pair-list indices

A negative index has N added; the [K, M] list becomes a [K, M, 1] array. The reference spells this four times (input
and output indices, once per convolution), each time with the operations of `wrapIdx`. -/

theorem wrap5 (x7 : IVec S27x50000 32) : Read.val_main_v5 (F := Ideal) x7 = wrapIdx x7 := rfl
theorem wrap14 (x8 : IVec S27x50000 32) : Read.val_main_v14 (F := Ideal) x8 = wrapIdx x8 := rfl
theorem wrap47 (x7 : IVec S27x50000 32) : Read.val_main_v47 (F := Ideal) x7 = wrapIdx x7 := rfl
theorem wrap56 (x8 : IVec S27x50000 32) : Read.val_main_v56 (F := Ideal) x8 = wrapIdx x8 := rfl

/-! ## The first convolution -/

/-- The two programs' gather records have the same fields, so they gather the same rows of any array at any indices. -/
theorem gather_eq (x : FVec Ideal S100000x128 .f32) (w : IVec S27x50000x1 32) :
    Host.gather Cert.ReferenceIdeal.gather_S100000x128_S27x50000x1_S27x50000x128_2_0_n_n_0_2_1128 x w
      = Host.gather Cert.KernelIdeal.gather_S100000x128_S27x50000x1_S27x50000x128_2_0_n_n_0_2_1128 x w := rfl

/-- The gathered rows of x. -/
theorem v6_eq (x0 : FVec Ideal S100000x128 .f32) (x7 : IVec S27x50000 32) :
    Read.val_main_v6 (F := Ideal) x0 x7 = gath x0 x7 := by
  unfold Read.val_main_v6 gath
  rw [wrap5]
  exact gather_eq x0 (wrapIdx x7)

/-- The contraction at (k, m, d) is ∑ c, g (k, m, c) · w (k, c, d), for any array g of gathered rows. -/
theorem mm_eq (g : FVec Ideal S27x50000x128 .f32) (w : FVec Ideal S27x128x128 .f32) (i : S27x50000x128.Idx) :
    ∑ k : Fin 128, g (Read.lidx_main_v7 i k) * w (Read.ridx_main_v7 i k) = mm g w i := rfl

/-- The gathered rows of x times the first weights. -/
theorem v7_eq (x0 : FVec Ideal S100000x128 .f32) (x1 : FVec Ideal S27x128x128 .f32) (x7 : IVec S27x50000 32) :
    Read.val_main_v7 (F := Ideal) x0 x1 x7 = mm (gath x0 x7) x1 := by
  funext i
  rw [Read.val_main_v7_apply, v6_eq]
  exact mm_eq _ _ _

/-- The scatter-add into the zero array: the two programs' scatter records have the same fields and the reference's
    zero array is the broadcast zero, for any updates u and any indices w. -/
theorem scat_eq (u : FVec Ideal S27x50000x128 .f32) (w : IVec S27x50000x1 32) :
    Host.scatterAdd (F := Ideal) Cert.ReferenceIdeal.scatter_S100000x128_S27x50000x1_S27x50000x128_2_0_0_2
        (Read.val_main_v8 (F := Ideal)) w u
      = Host.scatterAdd (F := Ideal) Cert.KernelIdeal.scatter_S100000x128_S27x50000x1_S27x50000x128_2_0_0_2
        (broadcastInDim S100000x128 ![] Cert.KernelIdeal.Facts₀.bcast_S_S100000x128
          (constant (F := Ideal) S_ .f32 0x00000000#32)) w u := rfl

/-- The first convolution. -/
theorem v15_eq (x0 : FVec Ideal S100000x128 .f32) (x1 : FVec Ideal S27x128x128 .f32) (x7 x8 : IVec S27x50000 32) :
    Read.val_main_v15 (F := Ideal) x0 x1 x7 x8 = conv x0 x1 x7 x8 := by
  unfold Read.val_main_v15 conv scat
  rw [v7_eq, wrap14]
  exact scat_eq _ _

/-! ## The first normalisation and rectification

Read entry by entry, with the convolution's result replaced by an arbitrary array y: the column sum starts from
zero, 0 + ∑ n, y (n, d) = ∑ n, y (n, d); the mean is that sum over N; the variance is the sum over the rows of the
squared deviations from the mean, over N; the entry is ((y − μ) · (v + ε)^(−1/2)) · γ + β, then max (·, 0). The
reference's composed index maps send (n, d) to column d of each [C] and [1, C] array, as `col`, `v1` and `rc` do. -/

theorem v41_apply (x0 : FVec Ideal S100000x128 .f32) (x1 : FVec Ideal S27x128x128 .f32) (x2 x3 : FVec Ideal S128 .f32)
    (x7 x8 : IVec S27x50000 32) (i : S100000x128.Idx) :
    Read.val_main_v41 (F := Ideal) x0 x1 x2 x3 x7 x8 i
      = max (bn varD (Read.val_main_v15 (F := Ideal) x0 x1 x7 x8) x2 x3 i) 0 := by
  simp only [Read.val_main_v41_apply, Read.val_main_call0_v0_apply, Read.val_main_call0_cst_apply, Read.val_main_v40_apply, Read.val_main_v39_apply, Read.val_main_v38_apply, Read.val_main_v37_apply, Read.val_main_v36_apply, Read.val_main_v35_apply, Read.val_main_v34_apply, Read.val_main_v33_apply, Read.val_main_v32_apply, Read.val_main_v31_apply, Read.val_main_v30_apply, Read.val_main_v29_apply, Read.val_main_cst_7_apply, Read.val_main_v28_apply, Read.val_main_v27_apply, Read.val_main_v26_apply, Read.val_main_v25_apply, Read.val_main_v24_apply, Read.val_main_cst_6_apply, Read.val_main_v23_apply, Read.val_main_cst_5_apply, Read.val_main_v22_apply, Read.val_main_v21_apply, Read.val_main_v20_apply, Read.val_main_v19_apply, Read.val_main_v18_apply, Read.val_main_v17_apply, Read.val_main_cst_4_apply, Read.val_main_v16_apply, Read.val_main_cst_3_apply]
  generalize Read.val_main_v15 (F := Ideal) x0 x1 x7 x8 = y
  simp only [Ideal.ofBits_def, Ideal.addf_def, Ideal.subf_def, Ideal.mulf_def, Ideal.maximumf_def, Ideal.hostDivf_def, Ideal.hostUnary_rsqrt_def, Ideal.ofBits_zero_f32, zero_add]
  rfl

/-- The first half of the block. -/
theorem v41_eq (x0 : FVec Ideal S100000x128 .f32) (x1 : FVec Ideal S27x128x128 .f32) (x2 x3 : FVec Ideal S128 .f32)
    (x7 x8 : IVec S27x50000 32) :
    Read.val_main_v41 (F := Ideal) x0 x1 x2 x3 x7 x8 = half1 varD x0 x1 x2 x3 x7 x8 := by
  funext i
  rw [v41_apply, v15_eq]
  unfold half1
  rfl

/-! ## The second convolution, of the first half's result -/

theorem v48_eq (x0 : FVec Ideal S100000x128 .f32) (x1 : FVec Ideal S27x128x128 .f32) (x2 x3 : FVec Ideal S128 .f32)
    (x7 x8 : IVec S27x50000 32) :
    Read.val_main_v48 (F := Ideal) x0 x1 x2 x3 x7 x8 = gath (half1 varD x0 x1 x2 x3 x7 x8) x7 := by
  unfold Read.val_main_v48 gath
  rw [v41_eq, wrap47]
  exact gather_eq _ _

theorem mm_eq49 (g : FVec Ideal S27x50000x128 .f32) (w : FVec Ideal S27x128x128 .f32) (i : S27x50000x128.Idx) :
    ∑ k : Fin 128, g (Read.lidx_main_v49 i k) * w (Read.ridx_main_v49 i k) = mm g w i := rfl

theorem v49_eq (x0 : FVec Ideal S100000x128 .f32) (x1 : FVec Ideal S27x128x128 .f32) (x2 x3 : FVec Ideal S128 .f32)
    (x4 : FVec Ideal S27x128x128 .f32) (x7 x8 : IVec S27x50000 32) :
    Read.val_main_v49 (F := Ideal) x0 x1 x2 x3 x4 x7 x8 = mm (gath (half1 varD x0 x1 x2 x3 x7 x8) x7) x4 := by
  funext i
  rw [Read.val_main_v49_apply, v48_eq]
  exact mm_eq49 _ _ _

theorem scat_eq50 (u : FVec Ideal S27x50000x128 .f32) (w : IVec S27x50000x1 32) :
    Host.scatterAdd (F := Ideal) Cert.ReferenceIdeal.scatter_S100000x128_S27x50000x1_S27x50000x128_2_0_0_2
        (Read.val_main_v50 (F := Ideal)) w u
      = Host.scatterAdd (F := Ideal) Cert.KernelIdeal.scatter_S100000x128_S27x50000x1_S27x50000x128_2_0_0_2
        (broadcastInDim S100000x128 ![] Cert.KernelIdeal.Facts₀.bcast_S_S100000x128
          (constant (F := Ideal) S_ .f32 0x00000000#32)) w u := rfl

/-- The second convolution. -/
theorem v57_eq (x0 : FVec Ideal S100000x128 .f32) (x1 : FVec Ideal S27x128x128 .f32) (x2 x3 : FVec Ideal S128 .f32)
    (x4 : FVec Ideal S27x128x128 .f32) (x7 x8 : IVec S27x50000 32) :
    Read.val_main_v57 (F := Ideal) x0 x1 x2 x3 x4 x7 x8 = conv (half1 varD x0 x1 x2 x3 x7 x8) x4 x7 x8 := by
  unfold Read.val_main_v57 conv scat
  rw [v49_eq, wrap56]
  exact scat_eq50 _ _

/-! ## The second normalisation, the skip connection, the rectification

As the first normalisation, over an arbitrary array y standing for the second convolution's result; the entry of x
is added before max (·, 0). -/

theorem v84_apply (x0 : FVec Ideal S100000x128 .f32) (x1 : FVec Ideal S27x128x128 .f32) (x2 x3 : FVec Ideal S128 .f32)
    (x4 : FVec Ideal S27x128x128 .f32) (x5 x6 : FVec Ideal S128 .f32) (x7 x8 : IVec S27x50000 32) (i : S100000x128.Idx) :
    Read.val_main_v84 (F := Ideal) x0 x1 x2 x3 x4 x5 x6 x7 x8 i
      = max (bn varD (Read.val_main_v57 (F := Ideal) x0 x1 x2 x3 x4 x7 x8) x5 x6 i + x0 i) 0 := by
  simp only [Read.val_main_v84_apply, Read.val_main_call1_v0_apply, Read.val_main_call1_cst_apply, Read.val_main_v83_apply, Read.val_main_v82_apply, Read.val_main_v81_apply, Read.val_main_v80_apply, Read.val_main_v79_apply, Read.val_main_v78_apply, Read.val_main_v77_apply, Read.val_main_v76_apply, Read.val_main_v75_apply, Read.val_main_v74_apply, Read.val_main_v73_apply, Read.val_main_v72_apply, Read.val_main_v71_apply, Read.val_main_cst_17_apply, Read.val_main_v70_apply, Read.val_main_v69_apply, Read.val_main_v68_apply, Read.val_main_v67_apply, Read.val_main_v66_apply, Read.val_main_cst_16_apply, Read.val_main_v65_apply, Read.val_main_cst_15_apply, Read.val_main_v64_apply, Read.val_main_v63_apply, Read.val_main_v62_apply, Read.val_main_v61_apply, Read.val_main_v60_apply, Read.val_main_v59_apply, Read.val_main_cst_14_apply, Read.val_main_v58_apply, Read.val_main_cst_13_apply]
  generalize Read.val_main_v57 (F := Ideal) x0 x1 x2 x3 x4 x7 x8 = y
  simp only [Ideal.ofBits_def, Ideal.addf_def, Ideal.subf_def, Ideal.mulf_def, Ideal.maximumf_def, Ideal.hostDivf_def, Ideal.hostUnary_rsqrt_def, Ideal.ofBits_zero_f32, zero_add]
  rfl

/-- The reference's result is the block, its variance the mean of the squared deviations. -/
theorem result_eq (x0 : FVec Ideal S100000x128 .f32) (x1 : FVec Ideal S27x128x128 .f32) (x2 x3 : FVec Ideal S128 .f32)
    (x4 : FVec Ideal S27x128x128 .f32) (x5 x6 : FVec Ideal S128 .f32) (x7 x8 : IVec S27x50000 32) :
    Cert.ReferenceIdeal.Read.val_main_v84 (F := Ideal) x0 x1 x2 x3 x4 x5 x6 x7 x8 = block varD x0 x1 x2 x3 x4 x5 x6 x7 x8 := by
  funext i
  rw [v84_apply, v57_eq]
  unfold block
  rfl

end Cert.ReferenceIdeal.RefValue

end
-- ==== Proof.LibRealSums.lean ====
/-
  General lemmas on extended reals that are real numbers. `IsR a` says the extended real `a` is (the coercion of) a real
  number; real numbers are closed under sums, products, maxima and finite sums, and on them the extended reals' arithmetic
  is the reals'. Consequences: a count of ones is a natural number, division by a nonzero real is multiplication by its
  reciprocal, and a finite aggregation (a sum over a finite set plus one more term, scaled by a constant) commutes with a
  linear projection `x ↦ ∑ k, x k * W k`.
-/
import Idealize.ShloMosaic.PureOps.Ideal

noncomputable section

namespace Cert.RealSums

open Idealize.ShloMosaic
open scoped BigOperators

/-- An extended real is real when it is the coercion of a real number (it is neither `⊥` nor `⊤`). -/
def IsR (a : EReal) : Prop := ∃ r : ℝ, a = (r : EReal)

/-- The coercion of a real number is real. -/
theorem IsR.coe (r : ℝ) : IsR (r : EReal) := ⟨r, rfl⟩

/-- Zero is real. -/
theorem IsR.zero : IsR 0 := ⟨0, rfl⟩

/-- One is real. -/
theorem IsR.one : IsR 1 := ⟨1, rfl⟩

/-- The sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- The product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- The maximum of two reals is real. -/
theorem IsR.max {a b : EReal} (ha : IsR a) (hb : IsR b) : IsR (Max.max a b) := by
  obtain ⟨x, rfl⟩ := ha
  obtain ⟨y, rfl⟩ := hb
  rcases le_total x y with h | h
  · exact ⟨y, max_eq_right (EReal.coe_le_coe_iff.2 h)⟩
  · exact ⟨x, max_eq_left (EReal.coe_le_coe_iff.2 h)⟩

/-- A finite sum of reals is real. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of ones over a finite set is the set's cardinality. -/
theorem sum_one_eq_card {ι : Type*} (s : Finset ι) : (∑ _i ∈ s, (1 : EReal)) = ((s.card : ℝ) : EReal) := by
  rw [Finset.sum_const, nsmul_one, EReal.coe_coe_eq_natCast]

/-- One more than a count of ones, started at zero, is a positive real number. -/
theorem count_add_one_pos {ι : Type*} (s : Finset ι) :
    ∃ d : ℝ, 0 < d ∧ ((0 : EReal) + ∑ _i ∈ s, (1 : EReal)) + 1 = (d : EReal) := by
  refine ⟨(s.card : ℝ) + 1, by positivity, ?_⟩
  rw [sum_one_eq_card, zero_add, EReal.coe_add, EReal.coe_one]

/-- Multiplying by the quotient `1 / d` of a nonzero real `d` is dividing by `d`. -/
theorem mul_div_one {d : ℝ} (hd : d ≠ 0) (a : EReal) : a * Ideal.div 1 (d : EReal) = Ideal.div a (d : EReal) := by
  rw [Ideal.div_coe hd, Ideal.div_coe hd, one_mul]

/-- The quotient of one by a nonzero real `d` is the real number `1 / d`. -/
theorem div_one_isR {d : ℝ} (hd : d ≠ 0) : Ideal.div 1 (d : EReal) = ((1 / d : ℝ) : EReal) := by
  rw [Ideal.div_coe hd, one_mul]

/-- Aggregation commutes with a linear projection: summing the projections `∑ k, x k * W k` of finitely many real rows,
    adding one more row's projection and scaling by a real constant `c` gives the projection of the row that sums the rows
    coordinatewise, adds the extra row and scales by `c`. -/
theorem aggregate_project {ε : Type*} (P : Finset ε) {K : ℕ} (hrow : ε → Fin K → EReal) (hn : Fin K → EReal)
    (W : Fin K → EReal) (c : EReal) (hh : ∀ e k, IsR (hrow e k)) (hhn : ∀ k, IsR (hn k)) (hW : ∀ k, IsR (W k))
    (hc : IsR c) :
    ((0 + ∑ e ∈ P, ∑ k, hrow e k * W k) + ∑ k, hn k * W k) * c
      = ∑ k, (((0 + ∑ e ∈ P, hrow e k) + hn k) * c) * W k := by
  have hh' : ∀ e k, ∃ r : ℝ, hrow e k = (r : EReal) := hh
  have hhn' : ∀ k, ∃ r : ℝ, hn k = (r : EReal) := hhn
  have hW' : ∀ k, ∃ r : ℝ, W k = (r : EReal) := hW
  choose H hH using hh'
  choose N hN using hhn'
  choose V hV using hW'
  obtain ⟨C, rfl⟩ := hc
  -- everything is the coercion of a real expression
  simp only [hH, hN, hV, zero_add, ← EReal.coe_mul, ← coe_sum, ← EReal.coe_add]
  -- the identity in the reals: exchange the two sums, then distribute
  congr 1
  rw [Finset.sum_comm, ← Finset.sum_add_distrib, Finset.sum_mul]
  refine Finset.sum_congr rfl fun k _ => ?_
  rw [← Finset.sum_mul]
  ring

end Cert.RealSums

end
-- ==== Proof.PreReal.lean ====
/-
  The precondition "every float input is finite", read back: every entry of each of the seven float arrays is a
  real number.

  The precondition compares |x| with +∞ entry by entry, |x| < +∞, reduces each array of bits by AND over the whole
  array starting from 1, and joins the seven results by AND into one bit, which it says is 1. An AND that is 1 had
  both operands 1, and an AND over a whole array that is 1 met a 1 at every entry; so |x| < +∞ holds at every entry of
  every array. On the extended reals |x| is max (x, −x), the pattern 0x7F800000 is +∞, and max (x, −x) < +∞ excludes
  both x = +∞ and x = −∞ (where −x = +∞): what is left is a real number.
-/
import proofs.«135215_j8418135900537_2_alg».proof.Proof.Gen.Pre_finite_inputs
import proofs.«135215_j8418135900537_2_alg».proof.Proof.LibRealSums
import Idealize.ShloMosaic.Lib.ReduceAll

noncomputable section

namespace Cert.Pre_finite_inputs.Real

open Idealize.ShloMosaic Cert.RealSums

/-- The rank-0 shape has one index. -/
instance : Subsingleton Cert.Pre_finite_inputs.S_.Idx := ⟨fun a b => funext fun d => d.elim0⟩

/-- The pattern 0x7F800000 is +∞. -/
theorem top_bits : Ideal.ofBits .f32 0x7F800000#32 = (⊤ : EReal) := by simp [Ideal.ofBits, Ideal.ieee]

/-- An extended real whose absolute value max (x, −x) is below +∞ is a real number: at x = −∞ the maximum is
    −(−∞) = +∞, at x = +∞ it is +∞. -/
theorem isR_of_abs_lt_top (x : EReal) (h : max x (-x) < ⊤) : IsR x := by
  induction x using EReal.rec with
  | bot => simp at h
  | coe r => exact ⟨r, rfl⟩
  | top => simp at h

/-- One entry of the comparison |a| < +∞ being 1 says the entry of a is a real number. -/
theorem isR_of_bit {s : Shape} (a : FVec Ideal s .f32) (bc : Cert.Pre_finite_inputs.S_.BroadcastsInDim s ![]) (i : s.Idx)
    (h : cmpf .olt (Host.absf a)
      (broadcastInDim s ![] bc (constant (F := Ideal) Cert.Pre_finite_inputs.S_ .f32 0x7F800000#32)) i = 1#1) :
    IsR (a i) := by
  -- the bit is the decision of max (a i, −a i) < the constant
  have h' : BitVec.ofBool (decide (max (a i) (-(a i)) < Ideal.ofBits .f32 0x7F800000#32)) = 1#1 := h
  rw [top_bits] at h'
  by_cases hlt : max (a i) (-(a i)) < ⊤
  · exact isR_of_abs_lt_top _ hlt
  · rw [decide_eq_false hlt] at h'
    exact absurd h' (by decide)

/-- Under the precondition every entry of every float input is a real number. -/
theorem inputs_real (a0 : FVec Ideal Cert.Pre_finite_inputs.S100000x128 .f32) (a1 : FVec Ideal Cert.Pre_finite_inputs.S27x128x128 .f32)
    (a2 a3 : FVec Ideal Cert.Pre_finite_inputs.S128 .f32) (a4 : FVec Ideal Cert.Pre_finite_inputs.S27x128x128 .f32)
    (a5 a6 : FVec Ideal Cert.Pre_finite_inputs.S128 .f32) (a7 a8 : IVec Cert.Pre_finite_inputs.S27x50000 32)
    (h : Cert.Pre_finite_inputs.fn (F := Ideal) a0 a1 a2 a3 a4 a5 a6 a7 a8 = fun _ => 1#1) :
    (∀ i, IsR (a0 i)) ∧ (∀ i, IsR (a1 i)) ∧ (∀ i, IsR (a2 i)) ∧ (∀ i, IsR (a3 i)) ∧ (∀ i, IsR (a4 i))
      ∧ (∀ i, IsR (a5 i)) ∧ (∀ i, IsR (a6 i)) := by
  -- the one bit, at the one index of the rank-0 result
  have e := congrFun h (fun d => d.elim0)
  dsimp only [Cert.Pre_finite_inputs.fn, Cert.Pre_finite_inputs.fn_part1] at e
  -- an AND of two bits is 1 exactly when both are: six ANDs join the seven arrays' results
  simp only [andi, IntOp.andi_eq_one] at e
  obtain ⟨⟨⟨⟨⟨⟨h0, h1⟩, h2⟩, h3⟩, h4⟩, h5⟩, h6⟩ := e
  -- each result is an AND over a whole array: every entry of the comparison is 1
  exact ⟨fun i => isR_of_bit a0 _ i (Host.reduce_andi_all _ _ _ _ _ h0 i),
    fun i => isR_of_bit a1 _ i (Host.reduce_andi_all _ _ _ _ _ h1 i),
    fun i => isR_of_bit a2 _ i (Host.reduce_andi_all _ _ _ _ _ h2 i),
    fun i => isR_of_bit a3 _ i (Host.reduce_andi_all _ _ _ _ _ h3 i),
    fun i => isR_of_bit a4 _ i (Host.reduce_andi_all _ _ _ _ _ h4 i),
    fun i => isR_of_bit a5 _ i (Host.reduce_andi_all _ _ _ _ _ h5 i),
    fun i => isR_of_bit a6 _ i (Host.reduce_andi_all _ _ _ _ _ h6 i)⟩

end Cert.Pre_finite_inputs.Real

end
-- ==== Proof.LibMomentVariance.lean ====
/-
  General lemma: the biased variance from the two moments is the mean of the squared deviations.

  For real numbers `r_0, …, r_{N-1}` with `N > 0`, sum `S`, sum of squares `Q` and mean `μ = S / N`,
      max (Q / N − μ · μ) 0 = (∑ (r_i − μ)²) / N,
  because `∑ (r_i − μ)² = Q − N μ²` and a sum of squares is nonnegative. On the extended reals the identity needs the
  `r_i` to be real numbers (a difference of infinities has no meaning): with real witnesses every term is the coercion
  of a real expression, division by the nonzero real `N` is multiplication by `1 / N`, and the identity is the one in
  the reals.
-/
import Idealize.ShloMosaic.PureOps.Ideal
import proofs.«135215_j8418135900537_2_alg».proof.Proof.LibRealSums

noncomputable section

open scoped BigOperators

namespace Cert.MomentVariance

open Idealize.ShloMosaic Cert.RealSums

/-- The sum of the squared deviations from `μ = S / N` is the sum of the squares minus `N μ²`. -/
theorem real_sum_sq_dev {N : ℕ} (hN : 0 < N) (R : Fin N → ℝ) :
    ∑ n, (R n - (∑ m, R m) * (1 / (N : ℝ))) * (R n - (∑ m, R m) * (1 / (N : ℝ)))
      = (∑ n, R n * R n) - (N : ℝ) * (((∑ m, R m) * (1 / (N : ℝ))) * ((∑ m, R m) * (1 / (N : ℝ)))) := by
  have hN' : (N : ℝ) ≠ 0 := Nat.cast_ne_zero.2 hN.ne'
  set S : ℝ := ∑ m, R m with hS
  have hexp : ∀ n, (R n - S * (1 / (N : ℝ))) * (R n - S * (1 / (N : ℝ)))
      = R n * R n - 2 * (S * (1 / (N : ℝ))) * R n + (S * (1 / (N : ℝ))) * (S * (1 / (N : ℝ))) := fun n => by ring
  simp only [hexp]
  rw [Finset.sum_add_distrib, Finset.sum_sub_distrib, ← Finset.mul_sum, Finset.sum_const, Finset.card_univ,
    Fintype.card_fin, nsmul_eq_mul, ← hS]
  field_simp
  ring

/-- The variance law in the reals: the clamped difference of moments is the mean squared deviation. -/
theorem real_var_law {N : ℕ} (hN : 0 < N) (R : Fin N → ℝ) :
    max ((∑ n, R n * R n) * (1 / (N : ℝ)) - ((∑ m, R m) * (1 / (N : ℝ))) * ((∑ m, R m) * (1 / (N : ℝ)))) 0
      = (∑ n, (R n - (∑ m, R m) * (1 / (N : ℝ))) * (R n - (∑ m, R m) * (1 / (N : ℝ)))) * (1 / (N : ℝ)) := by
  have hN' : (N : ℝ) ≠ 0 := Nat.cast_ne_zero.2 hN.ne'
  have hnn : 0 ≤ (∑ n, (R n - (∑ m, R m) * (1 / (N : ℝ))) * (R n - (∑ m, R m) * (1 / (N : ℝ)))) * (1 / (N : ℝ)) :=
    mul_nonneg (Finset.sum_nonneg fun n _ => mul_self_nonneg _) (by positivity)
  have heq : (∑ n, R n * R n) * (1 / (N : ℝ)) - ((∑ m, R m) * (1 / (N : ℝ))) * ((∑ m, R m) * (1 / (N : ℝ)))
      = (∑ n, (R n - (∑ m, R m) * (1 / (N : ℝ))) * (R n - (∑ m, R m) * (1 / (N : ℝ)))) * (1 / (N : ℝ)) := by
    rw [real_sum_sq_dev hN R]
    field_simp
  rw [heq]
  exact max_eq_left hnn

/-- The variance law on the extended reals, for real numbers `r_n` and the count `N > 0` as a real: the biased
    variance from the two moments, clamped at zero, is the mean of the squared deviations from the mean. -/
theorem moments_eq_mean_sq_dev {N : ℕ} (hN : 0 < N) (cnt : EReal) (hcnt : cnt = ((N : ℝ) : EReal)) (r : Fin N → EReal)
    (hr : ∀ n, IsR (r n)) :
    max (Ideal.div (∑ n, r n * r n) cnt - Ideal.div (∑ n, r n) cnt * Ideal.div (∑ n, r n) cnt) 0
      = Ideal.div (∑ n, (r n - Ideal.div (∑ n, r n) cnt) * (r n - Ideal.div (∑ n, r n) cnt)) cnt := by
  have hr' : ∀ n, ∃ x : ℝ, r n = (x : EReal) := hr
  choose R hR using hr'
  have hN' : (N : ℝ) ≠ 0 := Nat.cast_ne_zero.2 hN.ne'
  obtain rfl : r = fun n => ((R n : ℝ) : EReal) := funext hR
  subst hcnt
  have hmean : Ideal.div (∑ n, ((R n : ℝ) : EReal)) ((N : ℝ) : EReal) = (((∑ n, R n) * (1 / (N : ℝ)) : ℝ) : EReal) := by
    rw [Ideal.div_coe hN', ← coe_sum, ← EReal.coe_mul]
  rw [hmean, Ideal.div_coe hN', Ideal.div_coe hN']
  simp only [← EReal.coe_mul, ← EReal.coe_sub, ← coe_sum]
  rw [← real_var_law hN R]
  rcases le_total ((∑ n, R n * R n) * (1 / (N : ℝ))
      - ((∑ m, R m) * (1 / (N : ℝ))) * ((∑ m, R m) * (1 / (N : ℝ)))) 0 with h | h
  · rw [max_eq_right h, max_eq_right (by exact_mod_cast h), EReal.coe_zero]
  · rw [max_eq_left h, max_eq_left (by exact_mod_cast h)]

end Cert.MomentVariance

end
-- ==== Proof.Law.lean ====
/-
  The two variance forms give one block, for real inputs.

  On the extended reals the variance of a column from its two moments, max (∑ y² / N − (∑ y / N)², 0), and the mean of
  the squared deviations from the mean, ∑ (y − μ)² / N, agree when every entry of the column is a real number (a
  difference of infinities has no meaning). So the block computed with either form is one array once every array that
  reaches a normalisation is real: the convolution of real arrays is real (a gathered row is a row of the operand, a
  product of real matrices is a finite sum of real products, the scatter-add adds finitely many real numbers to zero),
  and a normalisation of a real array with real scale and shift is real, because its variance is a nonnegative real
  number, the variance plus ε is a positive real number, and the inverse square root of a positive real number is real.
-/
import proofs.«135215_j8418135900537_2_alg».proof.Proof.Spec
import proofs.«135215_j8418135900537_2_alg».proof.Proof.LibRealSums
import proofs.«135215_j8418135900537_2_alg».proof.Proof.LibMomentVariance
import Idealize.ShloMosaic.PureOps.Ideal.Laws

noncomputable section

namespace Cert.ResBlock

open Idealize.ShloMosaic Cert.KernelIdeal Cert.RealSums Cert.MomentVariance
open scoped BigOperators

/-- Every entry of an array is a real number. -/
def AllR {S : Shape} (f : S.Idx → EReal) : Prop := ∀ i, IsR (f i)

/-! ## The convolution of real arrays is real -/

theorem gath_real {x : FVec Ideal S100000x128 .f32} (hx : AllR x) (ii : IVec S27x50000 32) : AllR (gath x ii) :=
  fun _ => hx _

theorem mm_real {g : FVec Ideal S27x50000x128 .f32} {w : FVec Ideal S27x128x128 .f32} (hg : AllR g) (hw : AllR w) :
    AllR (mm g w) :=
  fun _ => IsR.sum _ _ fun _ _ => (hg _).mul (hw _)

theorem scat_real {u : FVec Ideal S27x50000x128 .f32} (hu : AllR u) (io : IVec S27x50000 32) : AllR (scat u io) := by
  intro i
  unfold scat Host.scatterAdd
  rw [Ideal.hostScatterAdd_def]
  unfold Ideal.hostScatterAdd
  refine IsR.add ?_ (IsR.sum _ _ fun j _ => hu j)
  show IsR (Ideal.ofBits .f32 0x00000000#32)
  rw [Ideal.ofBits_zero_f32]
  exact IsR.zero

theorem conv_real {x : FVec Ideal S100000x128 .f32} {w : FVec Ideal S27x128x128 .f32} (hx : AllR x) (hw : AllR w)
    (ii io : IVec S27x50000 32) : AllR (conv x w ii io) :=
  scat_real (mm_real (gath_real hx ii) hw) io

/-! ## The two constants -/

/-- The row count is the real number 100000. -/
theorem cnt_eq : cnt = (((100000 : ℕ) : ℝ) : EReal) := by
  unfold cnt
  simp [Ideal.ofBits, Ideal.ieee, -EReal.coe_mul]
  norm_num

/-- ε is a positive real number. -/
theorem eps_pos : ∃ e : ℝ, 0 < e ∧ eps = (e : EReal) := by
  unfold eps
  simp only [Ideal.ofBits, Ideal.ieee]
  have h1 : (BitVec.extractLsb' 23 8 925353388#32).toNat = 110 := by decide
  have h2 : (BitVec.extractLsb' 0 23 925353388#32).toNat = 2606508 := by decide
  have h3 : (BitVec.extractLsb' (8 + 23) 1 925353388#32 == 1#1) = false := by decide
  rw [h1, h2, h3, if_neg (by norm_num), if_neg (by norm_num)]
  simp only [Bool.false_eq_true, if_false]
  exact ⟨_, by positivity, rfl⟩

/-! ## The variance law, column by column -/

/-- For a real array the two variance forms agree on every column. -/
theorem var_eq {y : FVec Ideal S100000x128 .f32} (hy : AllR y) (d : Fin 128) : varM y d = varD y d := by
  unfold varM varD mean colSum sq
  exact moments_eq_mean_sq_dev (N := 100000) (by norm_num) cnt cnt_eq (fun n => y (rc n d)) (fun n => hy _)

/-! ## A normalisation of a real array is real -/

/-- Division of a real number by the row count is a real number. -/
theorem div_cnt_real {a : EReal} (ha : IsR a) : IsR (Ideal.div a cnt) := by
  obtain ⟨r, rfl⟩ := ha
  rw [cnt_eq, Ideal.div_coe (by norm_num)]
  exact (IsR.coe r).mul (IsR.coe _)

theorem colSum_real {y : FVec Ideal S100000x128 .f32} (hy : AllR y) (d : Fin 128) : IsR (colSum y d) :=
  IsR.sum _ _ fun _ _ => hy _

theorem mean_real {y : FVec Ideal S100000x128 .f32} (hy : AllR y) (d : Fin 128) : IsR (mean y d) :=
  div_cnt_real (colSum_real hy d)

/-- The mean of the squared deviations of a real column is a nonnegative real number. -/
theorem varD_nonneg {y : FVec Ideal S100000x128 .f32} (hy : AllR y) (d : Fin 128) :
    ∃ v : ℝ, 0 ≤ v ∧ varD y d = (v : EReal) := by
  obtain ⟨μ, hμ⟩ := mean_real hy d
  have hy' : ∀ n : Fin 100000, ∃ r : ℝ, y (rc n d) = (r : EReal) := fun n => hy _
  choose R hR using hy'
  refine ⟨(∑ n : Fin 100000, (R n - μ) * (R n - μ)) * (1 / ((100000 : ℕ) : ℝ)),
    mul_nonneg (Finset.sum_nonneg fun n _ => mul_self_nonneg _) (by positivity), ?_⟩
  unfold varD
  rw [hμ, cnt_eq, Ideal.div_coe (by norm_num)]
  simp only [hR, ← EReal.coe_sub, ← EReal.coe_mul, ← coe_sum]

/-- The inverse square root of a positive real number is a real number. -/
theorem rsqrt_real {r : ℝ} (hr : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.2 hr.le), if_neg hr.ne']

/-- A real entry normalised with a real mean, a nonnegative real variance, a real scale and a real shift is real. -/
theorem affine_real {y μ v γ β : EReal} (hy : IsR y) (hμ : IsR μ) (hv : ∃ r : ℝ, 0 ≤ r ∧ v = (r : EReal)) (hγ : IsR γ)
    (hβ : IsR β) : IsR (affine y μ v γ β) := by
  obtain ⟨r, hr, rfl⟩ := hv
  obtain ⟨e, he, hee⟩ := eps_pos
  obtain ⟨a, rfl⟩ := hy
  obtain ⟨b, rfl⟩ := hμ
  unfold affine
  rw [hee, ← EReal.coe_add, ← EReal.coe_sub]
  exact (((IsR.coe _).mul (rsqrt_real (by positivity))).mul hγ).add hβ

theorem bn_real {var : FVec Ideal S100000x128 .f32 → Fin 128 → EReal} {y : FVec Ideal S100000x128 .f32}
    {γ β : FVec Ideal S128 .f32} (hy : AllR y) (hvar : ∀ d, ∃ r : ℝ, 0 ≤ r ∧ var y d = (r : EReal)) (hγ : AllR γ)
    (hβ : AllR β) : AllR (bn var y γ β) :=
  fun i => affine_real (hy i) (mean_real hy _) (hvar _) (hγ _) (hβ _)

/-! ## The block -/

/-- On a real array the normalisation does not depend on the variance form. -/
theorem bn_var_eq {y : FVec Ideal S100000x128 .f32} (hy : AllR y) (γ β : FVec Ideal S128 .f32) :
    bn varM y γ β = bn varD y γ β := by
  funext i
  unfold bn
  rw [var_eq hy]

/-- For real inputs the block computed from the two moments is the block computed from the squared deviations. -/
theorem block_var_eq {x : FVec Ideal S100000x128 .f32} {w1 : FVec Ideal S27x128x128 .f32} {γ1 β1 : FVec Ideal S128 .f32}
    {w2 : FVec Ideal S27x128x128 .f32} {γ2 β2 : FVec Ideal S128 .f32} (hx : AllR x) (hw1 : AllR w1) (hγ1 : AllR γ1)
    (hβ1 : AllR β1) (hw2 : AllR w2) (ii io : IVec S27x50000 32) :
    block varM x w1 γ1 β1 w2 γ2 β2 ii io = block varD x w1 γ1 β1 w2 γ2 β2 ii io := by
  have ho1 : AllR (conv x w1 ii io) := conv_real hx hw1 ii io
  have hh : half1 varM x w1 γ1 β1 ii io = half1 varD x w1 γ1 β1 ii io := by
    unfold half1
    rw [bn_var_eq ho1]
  have hh1 : AllR (half1 varD x w1 γ1 β1 ii io) := fun i =>
    (bn_real ho1 (fun d => varD_nonneg ho1 d) hγ1 hβ1 i).max IsR.zero
  have ho2 : AllR (conv (half1 varD x w1 γ1 β1 ii io) w2 ii io) := conv_real hh1 hw2 ii io
  unfold block
  rw [hh, bn_var_eq ho2]

end Cert.ResBlock

end
-- ==== Proof.lean ====
/-
  The certificate of the sparse-convolution residual block: the Pallas program against its jnp reference, on the
  extended reals.

  Both programs compute  relu (bn (conv (relu (bn (conv x w₁))) w₂) + x)  — a sparse convolution gathers rows at the pair
  list's input indices, multiplies them by the offset's matrix and adds the products into the rows the output indices
  name; a batch normalisation over the N rows subtracts each column's mean, multiplies by (variance + ε)^(-1/2), scales
  and shifts. The kernel tiles the products over a 27 × 5 grid, accumulates each column's sum and sum of squares over ten
  row blocks, and takes the variance from the two moments, max (∑ y² / N − (∑ y / N)², 0); the reference takes it as the
  mean of the squared deviations from the mean. For finite inputs every array that reaches a normalisation is real and
  the two variances agree (Proof/Law.lean), which is the one place the precondition is used.

  The modules: Proof/Spec.lean states the block as one function of the argument arrays with the variance form a
  parameter; Proof/RegGemm.lean, Proof/RegStats.lean and Proof/RegBn.lean read what each of the kernel's six regions
  leaves in its output arrays as a function of the buffer contents the region is entered with; Proof/KRun.lean is the
  kernel's run with its result named at the last segment boundary's contents, and Proof/KValue.lean walks those contents
  back through the twelve segments to the block with the variance from the two moments; Proof/RefValue.lean reads the
  reference's result as the block with the variance from the squared deviations; Proof/PreReal.lean reads the
  precondition as "every entry of every float input is a real number"; Proof/Law.lean joins the two.
-/
import proofs.«135215_j8418135900537_2_alg».proof.Defs
import proofs.«135215_j8418135900537_2_alg».proof.Proof.Gen.Kernel
import proofs.«135215_j8418135900537_2_alg».proof.Proof.Gen.Kernel.Skeleton
import proofs.«135215_j8418135900537_2_alg».proof.Proof.Gen.Kernel.Launch
import proofs.«135215_j8418135900537_2_alg».proof.Proof.Gen.Kernel.Points
import proofs.«135215_j8418135900537_2_alg».proof.Proof.Gen.Kernel.Frame
import proofs.«135215_j8418135900537_2_alg».proof.Proof.Gen.KernelIdeal
import proofs.«135215_j8418135900537_2_alg».proof.Proof.Gen.KernelIdeal.Skeleton
import proofs.«135215_j8418135900537_2_alg».proof.Proof.Gen.KernelIdeal.Launch
import proofs.«135215_j8418135900537_2_alg».proof.Proof.Gen.KernelIdeal.Points
import proofs.«135215_j8418135900537_2_alg».proof.Proof.Gen.KernelIdeal.Frame
import proofs.«135215_j8418135900537_2_alg».proof.Proof.Gen.ReferenceIdeal
import proofs.«135215_j8418135900537_2_alg».proof.Proof.Gen.ReferenceIdeal.Run
import proofs.«135215_j8418135900537_2_alg».proof.Proof.Gen.ReferenceIdeal.Read
import proofs.«135215_j8418135900537_2_alg».proof.Proof.Gen.Pre_finite_inputs
import proofs.«135215_j8418135900537_2_alg».proof.Proof.KRun
import proofs.«135215_j8418135900537_2_alg».proof.Proof.KValue
import proofs.«135215_j8418135900537_2_alg».proof.Proof.RefValue
import proofs.«135215_j8418135900537_2_alg».proof.Proof.PreReal
import proofs.«135215_j8418135900537_2_alg».proof.Proof.Law
import Idealize.ShloMosaic.Adequacy
import Idealize.ShloMosaic.Init

noncomputable section

namespace Cert.Proof

open Idealize.ShloMosaic Idealize.SL.Sem Cert.ResBlock

/-- The kernel as printed runs and leaves its arguments as launched: the generated frame. -/
theorem frame_k : Cert.frame_Kernel := fun m ρ _ => Cert.Kernel.Gen.frame m ρ

/-- The idealized kernel runs and leaves its arguments as launched: the generated frame. -/
theorem frame_ki : Cert.frame_KernelIdeal := fun m ρ _ => Cert.KernelIdeal.Gen.frame m ρ

/-- The idealized reference runs and leaves its arguments as launched: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories agreeing on the arguments, finite by the precondition, both idealized programs end with the block of
    the arguments: the kernel with the variances from the two moments, the reference with the variances from the squared
    deviations, one array for real inputs. -/
theorem algebraic : Cert.algebraic_KernelIdeal_ReferenceIdeal := by
  intro m ρ m' ρ' hpre hagree
  refine ⟨fun c => block varM
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.ValueWalk.W12_v59 m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    obtain ⟨r0, r1, r2, r3, r4, -, -⟩ := Cert.Pre_finite_inputs.Real.inputs_real _ _ _ _ _ _ _ _ _ (hpre c)
    rw [Cert.ReferenceIdeal.Read.val_main_v84_eq, Cert.ReferenceIdeal.RefValue.result_eq, e0, e1, e2, e3, e4, e5, e6, e7, e8]
    exact (block_var_eq r0 r1 r2 r3 r4 _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
